-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4x4096x1024 .f32) (main_arg1 : FVec F S1024x1024 .f32) (main_arg2 : FVec F S1024x1024 .f32) (main_arg3 : FVec F S1024x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4x4096x1024 : Shape := ⟨3, ![4, 4096, 1024]⟩
abbrev S1024x1024 : Shape := ⟨2, ![1024, 1024]⟩
abbrev S4x1024x1024 : Shape := ⟨3, ![4, 1024, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S512x1024 : Shape := ⟨2, ![512, 1024]⟩
abbrev S1024 : Shape := ⟨1, ![1024]⟩
abbrev S4x1024x4096 : Shape := ⟨3, ![4, 1024, 4096]⟩
abbrev S1x1024x512 : Shape := ⟨3, ![1, 1024, 512]⟩
abbrev S1024x512 : Shape := ⟨2, ![1024, 512]⟩

abbrev nBuf : Space → Nat
  | .hbm => 9
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S4x1024x1024, .f32⟩
  | .hbm, ⟨8, _⟩ => ⟨S4x1024x4096, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | .local _ .vmem, ⟨7, _⟩ => ⟨S1x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1x512x1024, .f32⟩
  | .local _ .vmem, ⟨11, _⟩ => ⟨S1x512x1024, .f32⟩
  | .local _ .vmem, ⟨12, _⟩ => ⟨S1024x1024, .bf16⟩
  | .local _ .vmem, ⟨13, _⟩ => ⟨S1x1024x512, .f32⟩
  | .local _ .vmem, ⟨14, _⟩ => ⟨S1x1024x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v31 : BitVec 1 := Scalar.cmpi .eq arg1 c7_i32
  let v32 : BitVec 32 := Scalar.extui v31
  let c0_i32_20 : BitVec 32 := 0#32
  let v33 : BitVec 1 := Scalar.cmpi .ne v32 c0_i32_20
  v33

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S512x1024_S1024 : S512x1024.Reduces [0] S1024
  shapeCasts_S1024_S1x1024 : S1024.ShapeCasts S1x1024
  broadcasts_S1x1024_S1024x1024 : S1x1024.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  dot_S512x1024_S1024x1024_S512x1024_1_0_0_1_n_n_wf : DotDims.WF S512x1024 S1024x1024 S512x1024 [1] [0] [0] [1] [] []
  dot_S512x1024_S512x1024_S1024x1024_0_0_1_1_n_n_wf : DotDims.WF S512x1024 S512x1024 S1024x1024 [0] [0] [1] [1] [] []
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x4096x1024.size a
  hwx0_0 : ∀ i : grid0.Coords, EltTy.bits .f32 = 32 ∨ (Rect.block (s := S4x4096x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S4x1024x1024.size a
  hwx0_3 : ∀ i : grid0.Coords, EltTy.bits .f32 = 32 ∨ (Rect.block (s := S4x1024x1024) S1x1024x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x1024x1024.size a
  hwx1_0 : ∀ i : grid1.Coords, EltTy.bits .f32 = 32 ∨ (Rect.block (s := S4x1024x1024) S1x1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S4x4096x1024.size a
  hwx1_1 : ∀ i : grid1.Coords, EltTy.bits .f32 = 32 ∨ (Rect.block (s := S4x4096x1024) S1x512x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S1024x1024.size a
  hwx1_2 : ∀ i : grid1.Coords, EltTy.bits .bf16 = 32 ∨ (Rect.block (s := S1024x1024) S1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x512.size a ≤ S4x1024x4096.size a
  hwx1_3 : ∀ i : grid1.Coords, EltTy.bits .f32 = 32 ∨ (Rect.block (s := S4x1024x4096) S1x1024x512.size (cc1_transform_3 i) (hinb1_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S512x1024_S1024x1024_0_0_1_1_n_n : DotDims S512x1024 S512x1024 S1024x1024 where
  lhsContracting := [0]
  rhsContracting := [0]
  lhsNonContracting := [1]
  rhsNonContracting := [1]
  lhsBatch := []
  rhsBatch := []
  wf := dot_S512x1024_S512x1024_S1024x1024_0_0_1_1_n_n_wf
def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v3) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S_ : Shape := ⟨0, ![]⟩
abbrev S4x1024x1024 : Shape := ⟨3, ![4, 1024, 1024]⟩
abbrev S4x1024 : Shape := ⟨2, ![4, 1024]⟩
abbrev S4x1x1024 : Shape := ⟨3, ![4, 1, 1024]⟩
abbrev S4x1024x4096 : Shape := ⟨3, ![4, 1024, 4096]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4x4096x1024, .f32⟩
  | .hbm, ⟨5, _⟩ => ⟨S_, .f32⟩
  | .hbm, ⟨6, _⟩ => ⟨S4x4096x1024, .f32⟩
  | .hbm, ⟨7, _⟩ => ⟨S4x4096x1024, .f32⟩
  | .hbm, ⟨8, _⟩ => ⟨S_, .f32⟩
  | .hbm, ⟨9, _⟩ => ⟨S4x4096x1024, .f32⟩
  | .hbm, ⟨10, _⟩ => ⟨S4x4096x1024, .f32⟩
  | .hbm, ⟨11, _⟩ => ⟨S4x4096x1024, .f32⟩
  | .hbm, ⟨12, _⟩ => ⟨S_, .f32⟩
  | .hbm, ⟨13, _⟩ => ⟨S4x4096x1024, .f32⟩
  | .hbm, ⟨14, _⟩ => ⟨S4x4096x1024, .f32⟩
  | .hbm, ⟨15, _⟩ => ⟨S_, .f32⟩
  | .hbm, ⟨16, _⟩ => ⟨S4x4096x1024, .f32⟩
  | .hbm, ⟨17, _⟩ => ⟨S4x4096x1024, .f32⟩
  | .hbm, ⟨18, _⟩ => ⟨S4x4096x1024, .f32⟩
  | .hbm, ⟨19, _⟩ => ⟨S4x1024x1024, .f32⟩
  | .hbm, ⟨20, _⟩ => ⟨S_, .f32⟩
  | .hbm, ⟨21, _⟩ => ⟨S4x1024, .f32⟩
  | .hbm, ⟨22, _⟩ => ⟨S4x1x1024, .f32⟩
  | .hbm, ⟨23, _⟩ => ⟨S_, .f32⟩
  | .hbm, ⟨24, _⟩ => ⟨S4x1x1024, .f32⟩
  | .hbm, ⟨25, _⟩ => ⟨S4x1x1024, .f32⟩
  | .hbm, ⟨26, _⟩ => ⟨S4x1024x1024, .f32⟩
  | .hbm, ⟨27, _⟩ => ⟨S4x1024x1024, .f32⟩
  | .hbm, ⟨28, _⟩ => ⟨S4x1024x4096, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  bcast_S_S4x4096x1024 : S_.BroadcastsInDim S4x4096x1024 (![] : Fin 0 → Fin S4x4096x1024.rank)
  reducesTo_S4x4096x1024_S4x1024_d1 : S4x4096x1024.ReducesTo [1] S4x1024
  h_S_ : 0 < S_.numel
  bcast_S4x1024_S4x1x1024_0_2 : S4x1024.BroadcastsInDim S4x1x1024 (![0, 2] : Fin 2 → Fin S4x1x1024.rank)
  bcast_S_S4x1x1024 : S_.BroadcastsInDim S4x1x1024 (![] : Fin 0 → Fin S4x1x1024.rank)
  bcast_S4x1x1024_S4x1024x1024_0_1_2 : S4x1x1024.BroadcastsInDim S4x1024x1024 (![0, 1, 2] : Fin 3 → Fin S4x1024x1024.rank)
  dot_S4x4096x1024_S1024x1024_S4x4096x1024_2_0_01_1_n_n_wf : DotDims.WF S4x4096x1024 S1024x1024 S4x4096x1024 [2] [0] [0, 1] [1] [] []
  dot_S4x4096x1024_S4x4096x1024_S4x1024x1024_1_1_2_2_0_0_wf : DotDims.WF S4x4096x1024 S4x4096x1024 S4x1024x1024 [1] [1] [2] [2] [0] [0]
  dot_S4x1024x1024_S4x4096x1024_S4x1024x4096_2_2_1_1_0_0_wf : DotDims.WF S4x1024x1024 S4x4096x1024 S4x1024x4096 [2] [2] [1] [1] [0] [0]

variable [Facts₀]

def dot_S4x4096x1024_S1024x1024_S4x4096x1024_2_0_01_1_n_n : DotDims S4x4096x1024 S1024x1024 S4x4096x1024 where
  lhsContracting := [2]
  rhsContracting := [0]
  lhsNonContracting := [0, 1]
  rhsNonContracting := [1]
  lhsBatch := []
  rhsBatch := []
  wf := dot_S4x4096x1024_S1024x1024_S4x4096x1024_2_0_01_1_n_n_wf
def dot_S4x4096x1024_S4x4096x1024_S4x1024x1024_1_1_2_2_0_0 : DotDims S4x4096x1024 S4x4096x1024 S4x1024x1024 where
  lhsContracting := [1]
  rhsContracting := [1]
  lhsNonContracting := [2]
  rhsNonContracting := [2]
  lhsBatch := [0]
  rhsBatch := [0]
  wf := dot_S4x4096x1024_S4x4096x1024_S4x1024x1024_1_1_2_2_0_0_wf
def dot_S4x1024x1024_S4x4096x1024_S4x1024x4096_2_2_1_1_0_0 : DotDims S4x1024x1024 S4x4096x1024 S4x1024x4096 where
  lhsContracting := [2]
  rhsContracting := [2]
  lhsNonContracting := [1]
  rhsNonContracting := [1]
  lhsBatch := [0]
  rhsBatch := [0]
  wf := dot_S4x1024x1024_S4x4096x1024_S4x1024x4096_2_2_1_1_0_0_wf

class Facts : Prop extends Facts₀ where

variable [Facts]
-- ==== Proof.K.Shared0.lean ====
/-
  Region 0 (the first kernel call: the sums over the 4096 positions of a batch, accumulated over a grid axis of 8
  tiles of 512 positions, in two scratch accumulators) — what its three control cases share.

  The grid has 32 points t = 8·b + s (b the batch, s the tile). The body zeroes the two accumulators where s = 0,
  adds the tile's contribution at every point, and where s = 7 divides and stores the batch's context block. So a
  point is in exactly one of three cases: s = 0 (zero, then add), 0 < s < 7 (add), s = 7 (add, then divide and
  store). The output window is written only in the last case; elsewhere its buffer is handed back untouched and
  is not written back.
-/
import proofs.«154809_j59734405153127_1_alg».proof.Proof.Gen.Kernel.Launch
import proofs.«154809_j59734405153127_1_alg».proof.Proof.Gen.Kernel.Skeleton
import proofs.«154809_j59734405153127_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of full-size extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, in closed form over the grid -/

/-- The first branch (zero the accumulators) is taken: the tile coordinate is 0. -/
abbrev cond0_0 (i : grid0.Coords) : Prop := (Scalar.cmpi .ne (Scalar.extui (Scalar.cmpi .eq (BitVec.ofNat 32 (i 1).val) 0#32)) 0#32) = 1#1
/-- It holds exactly at the points t ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The last branch (divide and store the context block) is taken: the tile coordinate is 7. -/
abbrev cond0_1 (i : grid0.Coords) : Prop := k0_cond2 i = 1#1
/-- It holds exactly at the points t ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- The three input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the last branch is not taken the output window is idle and is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- Where it is taken the output window is live. -/
theorem liveAt0_3 : ∀ t : Fin cfg0.N, cond0_1 (grid0.coords t) → cfg0.idle 3 (grid0.coords t) = false := by decide +kernel

/-! ## The memrefs the body is called with -/

abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1024 .f32 := win0_3.stage (cfg0.slots t 3)
abbrev hs0_3 (t : Fin cfg0.N) : (ms0_3 t).IsWhole := hstage0_3 ((cfg0.slots t 3).cast nbuf0_3)
/-- The two accumulators: whole scoped buffers of the kernel's own (the numerator 1024 × 1024, the denominator 1 × 1024). -/
abbrev scM0_0 : Memref sig .tc .vmem S1024x1024 .f32 := Memref.whole cc0_scratch0
abbrev scM0_1 : Memref sig .tc .vmem S1x1024 .f32 := Memref.whole cc0_scratch1
/-- Views through which buffer contents are stated. -/
abbrev VO0_3 : View sig .tc .vmem S1x1024x1024 .f32 := (Memref.whole cc0_stg3_0 : Memref sig .tc .vmem S1x1024x1024 .f32).view
abbrev VS0_0 : View sig .tc .vmem S1024x1024 .f32 := scM0_0.view
abbrev VS0_1 : View sig .tc .vmem S1x1024 .f32 := scM0_1.view

/-! ## The class invariant opened -/

/-- The scoped buffers region 0 neither stages nor uses: the second call's staging buffers, each whole at anything. -/
def Rest1 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant of region 0: the two accumulators owned at some contents, the foreign staging buffers, and the
    generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ Rest1 c) ∗ (∃ r, prngReg c r)) := by
  unfold Pipeline.ΦA Rest1; rw [scopedRest0_eq]; simp only [scM0_0, scM0_1, owns_whole]; try rfl

end Cert.Kernel.Fr

end
-- ==== Proof.K.Run0A.lean ====
/-
  Region 0's body at a point of the first tile (s = 0): the two accumulators arrive holding anything, are zeroed,
  and then receive the tile's contribution; the output window is not touched. What the stores leave in each
  accumulator is recorded as the list of pieces written (last first), found by running the body symbolically.
-/
import proofs.«154809_j59734405153127_1_alg».proof.Proof.K.Shared0

-- membership in a rectangle of full-size extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in the case s = 0, on whole memrefs: the three inputs at their contents, the output's buffer at contents
    handed back untouched, the accumulators at anything; it runs to the continuation with the inputs as they were and
    each accumulator with its pieces written. -/
noncomputable def kernelRun0_A (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (arg7 : Memref sig .tc .vmem S1x1024 .f32) (harg7 : arg7.IsWhole) (hc0 : cond0_0 i) (hc1 : ¬cond0_1 i)
    (x0 : Vec F S1x512x1024 .f32) (x1 : Vec F S1024x1024 .bf16) (x2 : Vec F S1024x1024 .bf16) :
    Σ' (L3 : List (View.Piece (Elt F) S1x1024x1024 .f32)) (LS0 : List (View.Piece (Elt F) S1024x1024 .f32)), { LS1 : List (View.Piece (Elt F) S1x1024 .f32) //
      ∀ (xi3 : Vec F S1x1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__stage1_kernel i arg2 harg2 arg3 harg3 arg4 harg4 arg5 harg5 arg6 harg6 arg7 harg7) K } := by
  refine ⟨[], ?_, ?_, fun xi3 E K => ?run⟩
  case run =>
    simp only [cc0__stage1_kernel_eq_skeleton]; unfold cc0__stage1_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Fr

end
-- ==== Proof.K.Run0B.lean ====
/-
  Region 0's body at a point of a middle tile (0 < s < 7): each accumulator arrives holding what the point before
  left and receives the tile's contribution; the output window is not touched.
-/
import proofs.«154809_j59734405153127_1_alg».proof.Proof.K.Shared0

-- membership in a rectangle of full-size extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in the case 0 < s < 7, on whole memrefs: the inputs at their contents, the output's buffer handed back
    untouched, the accumulators at the contents `xs0`, `xs1` the point before left. -/
noncomputable def kernelRun0_B (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (arg7 : Memref sig .tc .vmem S1x1024 .f32) (harg7 : arg7.IsWhole) (hc0 : ¬cond0_0 i) (hc1 : ¬cond0_1 i)
    (x0 : Vec F S1x512x1024 .f32) (x1 : Vec F S1024x1024 .bf16) (x2 : Vec F S1024x1024 .bf16) (xs0 : Vec F S1024x1024 .f32) (xs1 : Vec F S1x1024 .f32) :
    Σ' (L3 : List (View.Piece (Elt F) S1x1024x1024 .f32)) (LS0 : List (View.Piece (Elt F) S1024x1024 .f32)), { LS1 : List (View.Piece (Elt F) S1x1024 .f32) //
      ∀ (xi3 : Vec F S1x1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__stage1_kernel i arg2 harg2 arg3 harg3 arg4 harg4 arg5 harg5 arg6 harg6 arg7 harg7) K } := by
  refine ⟨[], ?_, ?_, fun xi3 E K => ?run⟩
  case run =>
    simp only [cc0__stage1_kernel_eq_skeleton]; unfold cc0__stage1_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Fr

end
-- ==== Proof.K.Run0C.lean ====
/-
  Region 0's body at a point of the last tile (s = 7): each accumulator arrives holding what the point before left
  and receives the tile's contribution; then the numerator is divided, column by column, by the denominator plus ε
  and the quotient is stored whole into the output window's buffer.
-/
import proofs.«154809_j59734405153127_1_alg».proof.Proof.K.Shared0

-- membership in a rectangle of full-size extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in the case s = 7, on whole memrefs: the inputs at their contents, the output's buffer at anything, the
    accumulators at the contents `xs0`, `xs1` the point before left. -/
noncomputable def kernelRun0_C (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (arg7 : Memref sig .tc .vmem S1x1024 .f32) (harg7 : arg7.IsWhole) (hc0 : ¬cond0_0 i) (hc1 : cond0_1 i)
    (x0 : Vec F S1x512x1024 .f32) (x1 : Vec F S1024x1024 .bf16) (x2 : Vec F S1024x1024 .bf16) (xs0 : Vec F S1024x1024 .f32) (xs1 : Vec F S1x1024 .f32) :
    Σ' (L3 : List (View.Piece (Elt F) S1x1024x1024 .f32)) (LS0 : List (View.Piece (Elt F) S1024x1024 .f32)), { LS1 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__stage1_kernel i arg2 harg2 arg3 harg3 arg4 harg4 arg5 harg5 arg6 harg6 arg7 harg7) K } := by
  refine ⟨?_, ?_, ?_, fun E K => ?run⟩
  case run =>
    simp only [cc0__stage1_kernel_eq_skeleton]; unfold cc0__stage1_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.Kernel.Fr

end
-- ==== Proof.K.Frame0.lean ====
/-
  Region 0 as a pipeline: what the two accumulators and the output block hold after each of the 32 grid points,
  the invariant that carries the accumulators from one point to the next, and the body obligation.

  After the point t = 8·b + s the numerator accumulator holds the sum over the tiles 0..s of batch b of
  (feature tile)ᵀ · (value tile), the denominator accumulator the column sums of those feature tiles (each started
  from the zero fill of s = 0); at s = 7 the output window's buffer holds their quotient, the context block of b.
  Here that is stated through what the body's stores leave, case by case; the arithmetic is read elsewhere.
-/
import proofs.«154809_j59734405153127_1_alg».proof.Proof.K.Run0A
import proofs.«154809_j59734405153127_1_alg».proof.Proof.K.Run0B
import proofs.«154809_j59734405153127_1_alg».proof.Proof.K.Run0C

-- membership in a rectangle of full-size extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: a parameter
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves: the pieces cover their buffers, so the contents are the pieces read back -/

theorem scover0_A_0 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (arg7 : Memref sig .tc .vmem S1x1024 .f32) (harg7 : arg7.IsWhole) (hc0 : cond0_0 i) (hc1 : ¬cond0_1 i) (x0 : Vec F S1x512x1024 .f32) (x1 : Vec F S1024x1024 .bf16) (x2 : Vec F S1024x1024 .bf16) (y : S1024x1024.Idx) :
    ∃ pc ∈ (kernelRun0_A c i arg2 harg2 arg3 harg3 arg4 harg4 arg5 harg5 arg6 harg6 arg7 harg7 hc0 hc1 x0 x1 x2).2.1, y ∈ pc.1.set :=
  View.cover_of_tiledL (kernelRun0_A c i arg2 harg2 arg3 harg3 arg4 harg4 arg5 harg5 arg6 harg6 arg7 harg7 hc0 hc1 x0 x1 x2).2.1 S1024x1024.size (by sl_kernel_rfl) y
theorem scover0_A_1 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (arg7 : Memref sig .tc .vmem S1x1024 .f32) (harg7 : arg7.IsWhole) (hc0 : cond0_0 i) (hc1 : ¬cond0_1 i) (x0 : Vec F S1x512x1024 .f32) (x1 : Vec F S1024x1024 .bf16) (x2 : Vec F S1024x1024 .bf16) (y : S1x1024.Idx) :
    ∃ pc ∈ (kernelRun0_A c i arg2 harg2 arg3 harg3 arg4 harg4 arg5 harg5 arg6 harg6 arg7 harg7 hc0 hc1 x0 x1 x2).2.2.1, y ∈ pc.1.set :=
  View.cover_of_tiledL (kernelRun0_A c i arg2 harg2 arg3 harg3 arg4 harg4 arg5 harg5 arg6 harg6 arg7 harg7 hc0 hc1 x0 x1 x2).2.2.1 S1x1024.size (by sl_kernel_rfl) y
/-- What the case s = 0 leaves in the numerator accumulator. -/
def sout0_A_0 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (arg7 : Memref sig .tc .vmem S1x1024 .f32) (harg7 : arg7.IsWhole) (hc0 : cond0_0 i) (hc1 : ¬cond0_1 i) (x0 : Vec F S1x512x1024 .f32) (x1 : Vec F S1024x1024 .bf16) (x2 : Vec F S1024x1024 .bf16) : Vec F S1024x1024 .f32 :=
  VS0_0.read (Elt F) (VS0_0.writes (Elt F) VS0_0.junk (kernelRun0_A c i arg2 harg2 arg3 harg3 arg4 harg4 arg5 harg5 arg6 harg6 arg7 harg7 hc0 hc1 x0 x1 x2).2.1)
/-- What the case s = 0 leaves in the denominator accumulator. -/
def sout0_A_1 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (arg7 : Memref sig .tc .vmem S1x1024 .f32) (harg7 : arg7.IsWhole) (hc0 : cond0_0 i) (hc1 : ¬cond0_1 i) (x0 : Vec F S1x512x1024 .f32) (x1 : Vec F S1024x1024 .bf16) (x2 : Vec F S1024x1024 .bf16) : Vec F S1x1024 .f32 :=
  VS0_1.read (Elt F) (VS0_1.writes (Elt F) VS0_1.junk (kernelRun0_A c i arg2 harg2 arg3 harg3 arg4 harg4 arg5 harg5 arg6 harg6 arg7 harg7 hc0 hc1 x0 x1 x2).2.2.1)

theorem scover0_B_0 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (arg7 : Memref sig .tc .vmem S1x1024 .f32) (harg7 : arg7.IsWhole) (hc0 : ¬cond0_0 i) (hc1 : ¬cond0_1 i) (x0 : Vec F S1x512x1024 .f32) (x1 : Vec F S1024x1024 .bf16) (x2 : Vec F S1024x1024 .bf16) (xs0 : Vec F S1024x1024 .f32) (xs1 : Vec F S1x1024 .f32) (y : S1024x1024.Idx) :
    ∃ pc ∈ (kernelRun0_B c i arg2 harg2 arg3 harg3 arg4 harg4 arg5 harg5 arg6 harg6 arg7 harg7 hc0 hc1 x0 x1 x2 xs0 xs1).2.1, y ∈ pc.1.set :=
  View.cover_of_tiledL (kernelRun0_B c i arg2 harg2 arg3 harg3 arg4 harg4 arg5 harg5 arg6 harg6 arg7 harg7 hc0 hc1 x0 x1 x2 xs0 xs1).2.1 S1024x1024.size (by sl_kernel_rfl) y
theorem scover0_B_1 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (arg7 : Memref sig .tc .vmem S1x1024 .f32) (harg7 : arg7.IsWhole) (hc0 : ¬cond0_0 i) (hc1 : ¬cond0_1 i) (x0 : Vec F S1x512x1024 .f32) (x1 : Vec F S1024x1024 .bf16) (x2 : Vec F S1024x1024 .bf16) (xs0 : Vec F S1024x1024 .f32) (xs1 : Vec F S1x1024 .f32) (y : S1x1024.Idx) :
    ∃ pc ∈ (kernelRun0_B c i arg2 harg2 arg3 harg3 arg4 harg4 arg5 harg5 arg6 harg6 arg7 harg7 hc0 hc1 x0 x1 x2 xs0 xs1).2.2.1, y ∈ pc.1.set :=
  View.cover_of_tiledL (kernelRun0_B c i arg2 harg2 arg3 harg3 arg4 harg4 arg5 harg5 arg6 harg6 arg7 harg7 hc0 hc1 x0 x1 x2 xs0 xs1).2.2.1 S1x1024.size (by sl_kernel_rfl) y
/-- What a middle tile leaves in the numerator accumulator, over what the point before left. -/
def sout0_B_0 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (arg7 : Memref sig .tc .vmem S1x1024 .f32) (harg7 : arg7.IsWhole) (hc0 : ¬cond0_0 i) (hc1 : ¬cond0_1 i) (x0 : Vec F S1x512x1024 .f32) (x1 : Vec F S1024x1024 .bf16) (x2 : Vec F S1024x1024 .bf16) (xs0 : Vec F S1024x1024 .f32) (xs1 : Vec F S1x1024 .f32) : Vec F S1024x1024 .f32 :=
  VS0_0.read (Elt F) (VS0_0.writes (Elt F) VS0_0.junk (kernelRun0_B c i arg2 harg2 arg3 harg3 arg4 harg4 arg5 harg5 arg6 harg6 arg7 harg7 hc0 hc1 x0 x1 x2 xs0 xs1).2.1)
/-- What a middle tile leaves in the denominator accumulator. -/
def sout0_B_1 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (arg7 : Memref sig .tc .vmem S1x1024 .f32) (harg7 : arg7.IsWhole) (hc0 : ¬cond0_0 i) (hc1 : ¬cond0_1 i) (x0 : Vec F S1x512x1024 .f32) (x1 : Vec F S1024x1024 .bf16) (x2 : Vec F S1024x1024 .bf16) (xs0 : Vec F S1024x1024 .f32) (xs1 : Vec F S1x1024 .f32) : Vec F S1x1024 .f32 :=
  VS0_1.read (Elt F) (VS0_1.writes (Elt F) VS0_1.junk (kernelRun0_B c i arg2 harg2 arg3 harg3 arg4 harg4 arg5 harg5 arg6 harg6 arg7 harg7 hc0 hc1 x0 x1 x2 xs0 xs1).2.2.1)

theorem cover0_C_3 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (arg7 : Memref sig .tc .vmem S1x1024 .f32) (harg7 : arg7.IsWhole) (hc0 : ¬cond0_0 i) (hc1 : cond0_1 i) (x0 : Vec F S1x512x1024 .f32) (x1 : Vec F S1024x1024 .bf16) (x2 : Vec F S1024x1024 .bf16) (xs0 : Vec F S1024x1024 .f32) (xs1 : Vec F S1x1024 .f32) (y : S1x1024x1024.Idx) :
    ∃ pc ∈ (kernelRun0_C c i arg2 harg2 arg3 harg3 arg4 harg4 arg5 harg5 arg6 harg6 arg7 harg7 hc0 hc1 x0 x1 x2 xs0 xs1).1, y ∈ pc.1.set :=
  View.cover_of_tiledL (kernelRun0_C c i arg2 harg2 arg3 harg3 arg4 harg4 arg5 harg5 arg6 harg6 arg7 harg7 hc0 hc1 x0 x1 x2 xs0 xs1).1 S1x1024x1024.size (by sl_kernel_rfl) y
theorem scover0_C_0 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (arg7 : Memref sig .tc .vmem S1x1024 .f32) (harg7 : arg7.IsWhole) (hc0 : ¬cond0_0 i) (hc1 : cond0_1 i) (x0 : Vec F S1x512x1024 .f32) (x1 : Vec F S1024x1024 .bf16) (x2 : Vec F S1024x1024 .bf16) (xs0 : Vec F S1024x1024 .f32) (xs1 : Vec F S1x1024 .f32) (y : S1024x1024.Idx) :
    ∃ pc ∈ (kernelRun0_C c i arg2 harg2 arg3 harg3 arg4 harg4 arg5 harg5 arg6 harg6 arg7 harg7 hc0 hc1 x0 x1 x2 xs0 xs1).2.1, y ∈ pc.1.set :=
  View.cover_of_tiledL (kernelRun0_C c i arg2 harg2 arg3 harg3 arg4 harg4 arg5 harg5 arg6 harg6 arg7 harg7 hc0 hc1 x0 x1 x2 xs0 xs1).2.1 S1024x1024.size (by sl_kernel_rfl) y
theorem scover0_C_1 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (arg7 : Memref sig .tc .vmem S1x1024 .f32) (harg7 : arg7.IsWhole) (hc0 : ¬cond0_0 i) (hc1 : cond0_1 i) (x0 : Vec F S1x512x1024 .f32) (x1 : Vec F S1024x1024 .bf16) (x2 : Vec F S1024x1024 .bf16) (xs0 : Vec F S1024x1024 .f32) (xs1 : Vec F S1x1024 .f32) (y : S1x1024.Idx) :
    ∃ pc ∈ (kernelRun0_C c i arg2 harg2 arg3 harg3 arg4 harg4 arg5 harg5 arg6 harg6 arg7 harg7 hc0 hc1 x0 x1 x2 xs0 xs1).2.2.1, y ∈ pc.1.set :=
  View.cover_of_tiledL (kernelRun0_C c i arg2 harg2 arg3 harg3 arg4 harg4 arg5 harg5 arg6 harg6 arg7 harg7 hc0 hc1 x0 x1 x2 xs0 xs1).2.2.1 S1x1024.size (by sl_kernel_rfl) y
/-- What the last tile leaves in the output window's buffer: the context block. -/
def out0_C_3 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (arg7 : Memref sig .tc .vmem S1x1024 .f32) (harg7 : arg7.IsWhole) (hc0 : ¬cond0_0 i) (hc1 : cond0_1 i) (x0 : Vec F S1x512x1024 .f32) (x1 : Vec F S1024x1024 .bf16) (x2 : Vec F S1024x1024 .bf16) (xs0 : Vec F S1024x1024 .f32) (xs1 : Vec F S1x1024 .f32) : Vec F S1x1024x1024 .f32 :=
  VO0_3.read (Elt F) (VO0_3.writes (Elt F) VO0_3.junk (kernelRun0_C c i arg2 harg2 arg3 harg3 arg4 harg4 arg5 harg5 arg6 harg6 arg7 harg7 hc0 hc1 x0 x1 x2 xs0 xs1).1)
def sout0_C_0 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (arg7 : Memref sig .tc .vmem S1x1024 .f32) (harg7 : arg7.IsWhole) (hc0 : ¬cond0_0 i) (hc1 : cond0_1 i) (x0 : Vec F S1x512x1024 .f32) (x1 : Vec F S1024x1024 .bf16) (x2 : Vec F S1024x1024 .bf16) (xs0 : Vec F S1024x1024 .f32) (xs1 : Vec F S1x1024 .f32) : Vec F S1024x1024 .f32 :=
  VS0_0.read (Elt F) (VS0_0.writes (Elt F) VS0_0.junk (kernelRun0_C c i arg2 harg2 arg3 harg3 arg4 harg4 arg5 harg5 arg6 harg6 arg7 harg7 hc0 hc1 x0 x1 x2 xs0 xs1).2.1)
def sout0_C_1 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (arg7 : Memref sig .tc .vmem S1x1024 .f32) (harg7 : arg7.IsWhole) (hc0 : ¬cond0_0 i) (hc1 : cond0_1 i) (x0 : Vec F S1x512x1024 .f32) (x1 : Vec F S1024x1024 .bf16) (x2 : Vec F S1024x1024 .bf16) (xs0 : Vec F S1024x1024 .f32) (xs1 : Vec F S1x1024 .f32) : Vec F S1x1024 .f32 :=
  VS0_1.read (Elt F) (VS0_1.writes (Elt F) VS0_1.junk (kernelRun0_C c i arg2 harg2 arg3 harg3 arg4 harg4 arg5 harg5 arg6 harg6 arg7 harg7 hc0 hc1 x0 x1 x2 xs0 xs1).2.2.1)

/-- A placeholder for the output window's buffer at the points that do not store into it: nothing consults it, since
    there the window is neither written back nor read. -/
def idleOut : Vec F S1x1024x1024 .f32 := VO0_3.read (Elt F) (VO0_3.writes (Elt F) VO0_3.junk [])

/-! ## What the three buffers hold after each point -/

/-- The output buffer, the numerator accumulator, the denominator accumulator. -/
abbrev Out3 (F : FTy → Type) [FloatOps F] : Type := Vec F S1x1024x1024 .f32 × Vec F S1024x1024 .f32 × Vec F S1x1024 .f32

theorem ncond1_of_mod0 (t : Fin cfg0.N) (h0 : t.val % 8 = 0) : ¬cond0_1 (grid0.coords t) :=
  fun h => by have h7 := (hcond0_1 t).mp h; omega

/-- A point of the first tile. -/
def caseA (c : Dev nD) (t : Fin cfg0.N) (h0 : t.val % 8 = 0) : Out3 F :=
  (idleOut,
   sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (ncond1_of_mod0 t h0) (iblk0 V c 0 t) (iblk0 V c 1 t) (iblk0 V c 2 t),
   sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (ncond1_of_mod0 t h0) (iblk0 V c 0 t) (iblk0 V c 1 t) (iblk0 V c 2 t))
/-- A point of a middle tile, over the accumulators `p0`, `p1` the point before left. -/
def caseB (c : Dev nD) (t : Fin cfg0.N) (h0 : ¬t.val % 8 = 0) (h1 : ¬t.val % 8 = 7) (p0 : Vec F S1024x1024 .f32) (p1 : Vec F S1x1024 .f32) : Out3 F :=
  (idleOut,
   sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) p0 p1,
   sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) p0 p1)
/-- A point of the last tile, over the accumulators the point before left. -/
def caseC (c : Dev nD) (t : Fin cfg0.N) (h0 : ¬t.val % 8 = 0) (h1 : t.val % 8 = 7) (p0 : Vec F S1024x1024 .f32) (p1 : Vec F S1x1024 .f32) : Out3 F :=
  (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) p0 p1,
   sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) p0 p1,
   sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) p0 p1)

/-- THE ACCUMULATION: what the three buffers hold after the body at position `n`, by recursion on the position: the case
    the position is in, run on the point's input blocks and on the accumulators the position before left. -/
def outsAt0 (c : Dev nD) : (n : ℕ) → n < cfg0.N → Out3 F
  | 0, hn => caseA V c ⟨0, hn⟩ (Nat.zero_mod 8)
  | n + 1, hn =>
    if h0 : (n + 1) % 8 = 0 then caseA V c ⟨n + 1, hn⟩ h0
    else if h1 : (n + 1) % 8 = 7 then
      caseC V c ⟨n + 1, hn⟩ h0 h1 (outsAt0 c n (Nat.lt_of_succ_lt hn)).2.1 (outsAt0 c n (Nat.lt_of_succ_lt hn)).2.2
    else
      caseB V c ⟨n + 1, hn⟩ h0 h1 (outsAt0 c n (Nat.lt_of_succ_lt hn)).2.1 (outsAt0 c n (Nat.lt_of_succ_lt hn)).2.2

theorem outsAt0_A (c : Dev nD) (t : Fin cfg0.N) (h0 : t.val % 8 = 0) : outsAt0 V c t.val t.isLt = caseA V c t h0 := by
  obtain ⟨n, hn⟩ := t
  cases n with
  | zero => rfl
  | succ n => exact (dif_pos h0).trans rfl

theorem outsAt0_B (c : Dev nD) (t : Fin cfg0.N) (h0 : ¬t.val % 8 = 0) (h1 : ¬t.val % 8 = 7) :
    outsAt0 V c t.val t.isLt = caseB V c t h0 h1 (outsAt0 V c (t.val - 1) (Nat.lt_of_le_of_lt (Nat.sub_le _ _) t.isLt)).2.1
      (outsAt0 V c (t.val - 1) (Nat.lt_of_le_of_lt (Nat.sub_le _ _) t.isLt)).2.2 := by
  obtain ⟨n, hn⟩ := t
  cases n with
  | zero => exact absurd (Nat.zero_mod 8) h0
  | succ n => exact (dif_neg h0).trans ((dif_neg h1).trans rfl)

theorem outsAt0_C (c : Dev nD) (t : Fin cfg0.N) (h0 : ¬t.val % 8 = 0) (h1 : t.val % 8 = 7) :
    outsAt0 V c t.val t.isLt = caseC V c t h0 h1 (outsAt0 V c (t.val - 1) (Nat.lt_of_le_of_lt (Nat.sub_le _ _) t.isLt)).2.1
      (outsAt0 V c (t.val - 1) (Nat.lt_of_le_of_lt (Nat.sub_le _ _) t.isLt)).2.2 := by
  obtain ⟨n, hn⟩ := t
  cases n with
  | zero => exact absurd (Nat.zero_mod 8) h0
  | succ n => exact (dif_neg h0).trans ((dif_pos h1).trans rfl)

/-! ## The invariant that carries the accumulators -/

/-- Before position `n`: at the first point the class invariant (the accumulators at anything); afterwards each
    accumulator at what the position before left in it, beside the foreign staging buffers and the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ Rest1 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2) ∗ Rest1 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2) ∗ Rest1 c) ∗ (∃ r, prngReg c r)) := by
  cases n with
  | zero => exact absurd rfl hz
  | succ n => rfl

/-! ## The pipeline's proof data -/

/-- Region 0's proof data on core `c`: the arrays as the region finds them; after the body at point `t` each input's
    buffer at its block and the output's at the accumulation's first component; the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Cert.Kernel.Fr

end
-- ==== Proof.K.Body0.lean ====
/-
  Region 0's body obligation: at every grid point the body, handed the inputs' blocks, the output window's buffer and
  the two accumulators as the invariant holds them, runs and hands back the inputs untouched, the accumulators at
  this point's contents, and the output's buffer either untouched (tiles 0..6) or holding the context block (tile 7).
-/
import proofs.«154809_j59734405153127_1_alg».proof.Proof.K.Frame0

-- membership in a rectangle of full-size extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 8000000 in
/-- The body at any point: the closed forms of the two conditions say which case the point is in; the invariant hands the
    body the accumulators (at anything at the very first point, at what the point before left afterwards) and takes
    them back at this point's contents, which are the found pieces read back because the pieces cover the buffers. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 8 = 0
  · have hc1 : ¬cond0_1 (grid0.coords t) := ncond1_of_mod0 t h0
    rw [Dat.leavesExact_idle (dat0 V c) 3 t (idleAt0_3 t hc1) (noFlush0_3 t hc1)]
    rw [outsAt0_A V c t h0]
    unfold caseA sout0_A_0 sout0_A_1; (try dsimp only)
    by_cases hz : t.val = 0
    · rw [PhiS_castSucc V c t, PhiS_zero V c _ _ hz, PhiA0_eq]
      iintro ⟨⟨⟨HS0, HS1, HR⟩, Hg⟩, Ho, ⟨%d0, H0⟩, ⟨%d1, H1⟩, ⟨%d2, H2⟩, ⟨%d3, H3⟩⟩
      iapply ((kernelRun0_A c (grid0.coords t) _ _ _ _ _ _ _ _ _ _ _ _ ((hcond0_0 t).mpr h0) hc1 (iblk0 V c 0 t) (iblk0 V c 1 t) (iblk0 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_A_0 c _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩⟩
      iapply ((kernelRun0_A c (grid0.coords t) _ _ _ _ _ _ _ _ _ _ _ _ ((hcond0_0 t).mpr h0) hc1 (iblk0 V c 0 t) (iblk0 V c 1 t) (iblk0 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_A_0 c _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := by omega
    by_cases h1 : t.val % 8 = 7
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold caseC out0_C_3 sout0_C_0 sout0_C_1; (try dsimp only)
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩⟩
      iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_C_0 c _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _ _ _ _)
    · have hc1 : ¬cond0_1 (grid0.coords t) := fun h => h1 ((hcond0_1 t).mp h)
      rw [Dat.leavesExact_idle (dat0 V c) 3 t (idleAt0_3 t hc1) (noFlush0_3 t hc1)]
      rw [outsAt0_B V c t h0 h1]
      unfold caseB sout0_B_0 sout0_B_1; (try dsimp only)
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩⟩
      iapply ((kernelRun0_B c (grid0.coords t) _ _ _ _ _ _ _ _ _ _ _ _ (fun h => h0 ((hcond0_0 t).mp h)) hc1 (iblk0 V c 0 t) (iblk0 V c 1 t) (iblk0 V c 2 t) _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_B_0 c _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region (the class invariant) is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class invariant back: the accumulators' contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 32 := N_0; omega
  rw [show (dat0 V c).Φ (Fin.last cfg0.N) = PhiS V c (Fin.last cfg0.N).val (Nat.le_of_lt_succ (Fin.last cfg0.N).isLt) from rfl,
    PhiS_pos V c _ _ hne, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

end Cert.Kernel.Fr

end
-- ==== Proof.K.Reg1.lean ====
/-
  Region 1 (the second pallas_call: out[b] = ctx[b] · Qᵀ, one grid point per batch and block of 512 positions),
  at the buffer contents `V` the region is entered with: each window's block at a point, what the body leaves in
  the output window's buffer as a closed function of the three input blocks, the body's triple, the pipeline's
  proof data and the body obligation. The body has one control case, every load and store is a whole literal
  rectangle, and nothing is kept from point to point.
-/
import proofs.«154809_j59734405153127_1_alg».proof.Proof.Gen.Kernel.Launch
import proofs.«154809_j59734405153127_1_alg».proof.Proof.Gen.Kernel.Skeleton
import proofs.«154809_j59734405153127_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extents 1024 × 512: the elaborator's structural look recurses once per
-- coordinate of the long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same of input window 2. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1x1024x1024 := Rect.unit (s := S1x1024x1024) ![0, 0, 0] S1x1024x1024.size inb_S1x1024x1024_S1x1024x1024_0_0_0
abbrev r1_1 : Rect S1x512x1024 := Rect.unit (s := S1x512x1024) ![0, 0, 0] S1x512x1024.size inb_S1x512x1024_S1x512x1024_0_0_0
abbrev r1_2 : Rect S1024x1024 := Rect.unit (s := S1024x1024) ![0, 0] S1024x1024.size inb_S1024x1024_S1024x1024_0_0
abbrev r1_3 : Rect S1x1024x512 := Rect.unit (s := S1x1024x512) ![0, 0, 0] S1x1024x512.size inb_S1x1024x512_S1x1024x512_0_0_0

/-! ## What the body leaves in the output window's buffer -/

/-- Window 3's staging buffer after the body, from the input windows' blocks: its one store as a piece. -/
def out1_3 (x0 : Vec F S1x1024x1024 .f32) (x1 : Vec F S1x512x1024 .f32) (x2 : Vec F S1024x1024 .bf16) : Vec F S1x1024x512 .f32 :=
  View.canon [⟨r1_3, k1_pay1 (View.ld x0 r1_0) (View.ld x1 r1_1) (View.ld x2 r1_2)⟩]

/-- The store tiles the buffer, so it covers it. -/
theorem cover1_3 (p0 : Vec F S1x1024x512 .f32) (y : S1x1024x512.Idx) :
    ∃ pc ∈ ([⟨r1_3, p0⟩] : List (View.Piece (Elt F) S1x1024x512 .f32)), y ∈ pc.1.set :=
  View.cover_of_tiled [⟨r1_3, p0⟩] S1x1024x512.size (by rfl) y

/-! ## The body's triple -/

set_option maxHeartbeats 1000000 in
/-- The kernel body on whole staging memrefs, the inputs' at read contents `x0`, `x1`, `x2` and the output's at
    anything, runs to the continuation holding the inputs' as they were and the output's at `out1_3` of the inputs'. -/
theorem sound_kernel1 (c : Dev nD) (E : Set ℕ) (i : grid1.Coords)
    (arg2 : Memref sig .tc .vmem S1x1024x1024 .f32) (harg2 : arg2.IsWhole) (arg3 : Memref sig .tc .vmem S1x512x1024 .f32) (harg3 : arg3.IsWhole)
    (arg4 : Memref sig .tc .vmem S1024x1024 .bf16) (harg4 : arg4.IsWhole) (arg5 : Memref sig .tc .vmem S1x1024x512 .f32) (harg5 : arg5.IsWhole)
    (x0 : Vec F S1x1024x1024 .f32) (x1 : Vec F S1x512x1024 .f32) (x2 : Vec F S1024x1024 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__stage2_kernel i arg2 harg2 arg3 harg3 arg4 harg4 arg5 harg5) K := by
  simp only [cc1__stage2_kernel_eq_skeleton]; unfold cc1__stage2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the pipeline on core `c`: the arrays as the region finds them (`V`); after the body at point
    `t` each input's buffer at its block and the output's at `out1_3` of the three input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Assembly.lean ====
/-
  The whole run of the kernel program, at any float instance: the three weight casts on the host, then the two kernel
  regions, as a chain of segments. Between two segments every unscoped buffer of the core is held at a named
  contents: as launched; after the casts; after region 0 (its output array at what its write-backs leave, every
  other buffer as before); after region 1 (the same for its output array). Every weakly fair execution terminates
  without a fault in a state whose unscoped buffers hold that last contents. The frame claim (the four argument
  arrays end as launched) and the value of the result array are both read off it.
-/
import proofs.«154809_j59734405153127_1_alg».proof.Proof.K.Body0
import proofs.«154809_j59734405153127_1_alg».proof.Proof.K.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full-size extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the three casts of the weight matrices (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit (the end of the program): its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

/-- The query is an input array of both regions (read, never written) and no cast writes it. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 1).trans (((dat1 (V2 m ρ) c).arrAt_in 1 rfl _).trans (A_eq1 (V2 m ρ) c 1))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
/-- `main_arg1` is no array of either region and no cast writes it: it ends as launched. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
/-- `main_arg2` is no array of either region and no cast writes it: it ends as launched. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
/-- `main_arg3` is no array of either region and no cast writes it: it ends as launched. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The result array at the end is what region 1's write-backs leave. -/
theorem W3_main_v4 (c : Dev nD) : W3 m ρ c (Proc.devRef .tc main_v4) = (dat1 (V2 m ρ) c).arrAt 3 cfg1.N :=
  W3_arr m ρ c 3
/-- Region 1 finds in the context array what region 0's write-backs left. -/
theorem W2_main_v3 (c : Dev nD) : W2 m ρ c (Proc.devRef .tc main_v3) = (dat0 (V1 m ρ) c).arrAt 3 cfg0.N :=
  W2_arr m ρ c 3
/-- Region 1 finds the query and the cast Wq as region 0 found them. -/
theorem W2_main_arg0 (c : Dev nD) : W2 m ρ c (Proc.devRef .tc main_arg0) = W1 m ρ c (Proc.devRef .tc main_arg0) :=
  (W2_arr m ρ c 0).trans (((dat0 (V1 m ρ) c).arrAt_in 0 rfl _).trans (A_eq0 (V1 m ρ) c 0))
theorem W2_main_v2 (c : Dev nD) : W2 m ρ c (Proc.devRef .tc main_v2) = W1 m ρ c (Proc.devRef .tc main_v2) :=
  W2_of_ne m ρ c main_v2 (by decide)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0: entered from every unscoped buffer at `W1`, left at `W2`. The generator register and the scoped rest go
    into the invariant through the class invariant and come back the same way; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest (Ix := Unit) (Name := ℕ) (U := UR sig nD τ) (Lvl := ℕ) (Val := Elt F) spec0 c ∗ ∃ r, prngReg c r) : sProp 𝕄) ⊢ (pdats m ρ 0 c).Φ 0 :=
      hin0 (V1 m ρ) c
    iintro ⟨Hp, -, Hr⟩
    iapply h
    isplitl [Hr]; · iexact Hr
    iexact Hp
  hout c := by
    rw [Pipeline.ownSems0_none]
    have h : (pdats m ρ 0 c).Φ (Fin.last _) ⊢ (iprop(Pipeline.scopedRest (Ix := Unit) (Name := ℕ) (U := UR sig nD τ) (Lvl := ℕ) (Val := Elt F) spec0 c ∗ ∃ r, prngReg c r) : sProp 𝕄) :=
      hout0 (V1 m ρ) c
    iintro HP
    ihave H := h $$ HP
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W2`, left at `W3`, what the launch reads at the end. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing faulting,
    and in every final state each unscoped buffer of each core holds the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.Kernel.Fr

end
-- ==== Proof.KI.Shared0.lean ====
/-
  Region 0 (the first kernel call: the sums over the 4096 positions of a batch, accumulated over a grid axis of 8
  tiles of 512 positions, in two scratch accumulators) — what its three control cases share.

  The grid has 32 points t = 8·b + s (b the batch, s the tile). The body zeroes the two accumulators where s = 0,
  adds the tile's contribution at every point, and where s = 7 divides and stores the batch's context block. So a
  point is in exactly one of three cases: s = 0 (zero, then add), 0 < s < 7 (add), s = 7 (add, then divide and
  store). The output window is written only in the last case; elsewhere its buffer is handed back untouched and
  is not written back.
-/
import proofs.«154809_j59734405153127_1_alg».proof.Proof.Gen.KernelIdeal.Launch
import proofs.«154809_j59734405153127_1_alg».proof.Proof.Gen.KernelIdeal.Skeleton
import proofs.«154809_j59734405153127_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of full-size extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, in closed form over the grid -/

/-- The first branch (zero the accumulators) is taken: the tile coordinate is 0. -/
abbrev cond0_0 (i : grid0.Coords) : Prop := (Scalar.cmpi .ne (Scalar.extui (Scalar.cmpi .eq (BitVec.ofNat 32 (i 1).val) 0#32)) 0#32) = 1#1
/-- It holds exactly at the points t ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The last branch (divide and store the context block) is taken: the tile coordinate is 7. -/
abbrev cond0_1 (i : grid0.Coords) : Prop := k0_cond2 i = 1#1
/-- It holds exactly at the points t ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- The three input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the last branch is not taken the output window is idle and is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- Where it is taken the output window is live. -/
theorem liveAt0_3 : ∀ t : Fin cfg0.N, cond0_1 (grid0.coords t) → cfg0.idle 3 (grid0.coords t) = false := by decide +kernel

/-! ## The memrefs the body is called with -/

abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1024 .f32 := win0_3.stage (cfg0.slots t 3)
abbrev hs0_3 (t : Fin cfg0.N) : (ms0_3 t).IsWhole := hstage0_3 ((cfg0.slots t 3).cast nbuf0_3)
/-- The two accumulators: whole scoped buffers of the kernel's own (the numerator 1024 × 1024, the denominator 1 × 1024). -/
abbrev scM0_0 : Memref sig .tc .vmem S1024x1024 .f32 := Memref.whole cc0_scratch0
abbrev scM0_1 : Memref sig .tc .vmem S1x1024 .f32 := Memref.whole cc0_scratch1
/-- Views through which buffer contents are stated. -/
abbrev VO0_3 : View sig .tc .vmem S1x1024x1024 .f32 := (Memref.whole cc0_stg3_0 : Memref sig .tc .vmem S1x1024x1024 .f32).view
abbrev VS0_0 : View sig .tc .vmem S1024x1024 .f32 := scM0_0.view
abbrev VS0_1 : View sig .tc .vmem S1x1024 .f32 := scM0_1.view

/-! ## The class invariant opened -/

/-- The scoped buffers region 0 neither stages nor uses: the second call's staging buffers, each whole at anything. -/
def Rest1 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant of region 0: the two accumulators owned at some contents, the foreign staging buffers, and the
    generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ Rest1 c) ∗ (∃ r, prngReg c r)) := by
  unfold Pipeline.ΦA Rest1; rw [scopedRest0_eq]; simp only [scM0_0, scM0_1, owns_whole]; try rfl

end Cert.KernelIdeal.Fr

end
-- ==== Proof.KI.Run0A.lean ====
/-
  Region 0's body at a point of the first tile (s = 0): the two accumulators arrive holding anything, are zeroed,
  and then receive the tile's contribution; the output window is not touched. What the stores leave in each
  accumulator is recorded as the list of pieces written (last first), found by running the body symbolically.
-/
import proofs.«154809_j59734405153127_1_alg».proof.Proof.KI.Shared0

-- membership in a rectangle of full-size extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in the case s = 0, on whole memrefs: the three inputs at their contents, the output's buffer at contents
    handed back untouched, the accumulators at anything; it runs to the continuation with the inputs as they were and
    each accumulator with its pieces written. -/
noncomputable def kernelRun0_A (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (arg7 : Memref sig .tc .vmem S1x1024 .f32) (harg7 : arg7.IsWhole) (hc0 : cond0_0 i) (hc1 : ¬cond0_1 i)
    (x0 : Vec F S1x512x1024 .f32) (x1 : Vec F S1024x1024 .bf16) (x2 : Vec F S1024x1024 .bf16) :
    Σ' (L3 : List (View.Piece (Elt F) S1x1024x1024 .f32)) (LS0 : List (View.Piece (Elt F) S1024x1024 .f32)), { LS1 : List (View.Piece (Elt F) S1x1024 .f32) //
      ∀ (xi3 : Vec F S1x1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__stage1_kernel i arg2 harg2 arg3 harg3 arg4 harg4 arg5 harg5 arg6 harg6 arg7 harg7) K } := by
  refine ⟨[], ?_, ?_, fun xi3 E K => ?run⟩
  case run =>
    simp only [cc0__stage1_kernel_eq_skeleton]; unfold cc0__stage1_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Fr

end
-- ==== Proof.KI.Run0B.lean ====
/-
  Region 0's body at a point of a middle tile (0 < s < 7): each accumulator arrives holding what the point before
  left and receives the tile's contribution; the output window is not touched.
-/
import proofs.«154809_j59734405153127_1_alg».proof.Proof.KI.Shared0

-- membership in a rectangle of full-size extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in the case 0 < s < 7, on whole memrefs: the inputs at their contents, the output's buffer handed back
    untouched, the accumulators at the contents `xs0`, `xs1` the point before left. -/
noncomputable def kernelRun0_B (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (arg7 : Memref sig .tc .vmem S1x1024 .f32) (harg7 : arg7.IsWhole) (hc0 : ¬cond0_0 i) (hc1 : ¬cond0_1 i)
    (x0 : Vec F S1x512x1024 .f32) (x1 : Vec F S1024x1024 .bf16) (x2 : Vec F S1024x1024 .bf16) (xs0 : Vec F S1024x1024 .f32) (xs1 : Vec F S1x1024 .f32) :
    Σ' (L3 : List (View.Piece (Elt F) S1x1024x1024 .f32)) (LS0 : List (View.Piece (Elt F) S1024x1024 .f32)), { LS1 : List (View.Piece (Elt F) S1x1024 .f32) //
      ∀ (xi3 : Vec F S1x1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__stage1_kernel i arg2 harg2 arg3 harg3 arg4 harg4 arg5 harg5 arg6 harg6 arg7 harg7) K } := by
  refine ⟨[], ?_, ?_, fun xi3 E K => ?run⟩
  case run =>
    simp only [cc0__stage1_kernel_eq_skeleton]; unfold cc0__stage1_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Fr

end
-- ==== Proof.KI.Run0C.lean ====
/-
  Region 0's body at a point of the last tile (s = 7): each accumulator arrives holding what the point before left
  and receives the tile's contribution; then the numerator is divided, column by column, by the denominator plus ε
  and the quotient is stored whole into the output window's buffer.
-/
import proofs.«154809_j59734405153127_1_alg».proof.Proof.KI.Shared0

-- membership in a rectangle of full-size extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in the case s = 7, on whole memrefs: the inputs at their contents, the output's buffer at anything, the
    accumulators at the contents `xs0`, `xs1` the point before left. -/
noncomputable def kernelRun0_C (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (arg7 : Memref sig .tc .vmem S1x1024 .f32) (harg7 : arg7.IsWhole) (hc0 : ¬cond0_0 i) (hc1 : cond0_1 i)
    (x0 : Vec F S1x512x1024 .f32) (x1 : Vec F S1024x1024 .bf16) (x2 : Vec F S1024x1024 .bf16) (xs0 : Vec F S1024x1024 .f32) (xs1 : Vec F S1x1024 .f32) :
    Σ' (L3 : List (View.Piece (Elt F) S1x1024x1024 .f32)) (LS0 : List (View.Piece (Elt F) S1024x1024 .f32)), { LS1 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__stage1_kernel i arg2 harg2 arg3 harg3 arg4 harg4 arg5 harg5 arg6 harg6 arg7 harg7) K } := by
  refine ⟨?_, ?_, ?_, fun E K => ?run⟩
  case run =>
    simp only [cc0__stage1_kernel_eq_skeleton]; unfold cc0__stage1_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.KernelIdeal.Fr

end
-- ==== Proof.KI.Frame0.lean ====
/-
  Region 0 as a pipeline: what the two accumulators and the output block hold after each of the 32 grid points,
  the invariant that carries the accumulators from one point to the next, and the body obligation.

  After the point t = 8·b + s the numerator accumulator holds the sum over the tiles 0..s of batch b of
  (feature tile)ᵀ · (value tile), the denominator accumulator the column sums of those feature tiles (each started
  from the zero fill of s = 0); at s = 7 the output window's buffer holds their quotient, the context block of b.
  Here that is stated through what the body's stores leave, case by case; the arithmetic is read elsewhere.
-/
import proofs.«154809_j59734405153127_1_alg».proof.Proof.KI.Run0A
import proofs.«154809_j59734405153127_1_alg».proof.Proof.KI.Run0B
import proofs.«154809_j59734405153127_1_alg».proof.Proof.KI.Run0C

-- membership in a rectangle of full-size extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: a parameter
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves: the pieces cover their buffers, so the contents are the pieces read back -/

theorem scover0_A_0 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (arg7 : Memref sig .tc .vmem S1x1024 .f32) (harg7 : arg7.IsWhole) (hc0 : cond0_0 i) (hc1 : ¬cond0_1 i) (x0 : Vec F S1x512x1024 .f32) (x1 : Vec F S1024x1024 .bf16) (x2 : Vec F S1024x1024 .bf16) (y : S1024x1024.Idx) :
    ∃ pc ∈ (kernelRun0_A c i arg2 harg2 arg3 harg3 arg4 harg4 arg5 harg5 arg6 harg6 arg7 harg7 hc0 hc1 x0 x1 x2).2.1, y ∈ pc.1.set :=
  View.cover_of_tiledL (kernelRun0_A c i arg2 harg2 arg3 harg3 arg4 harg4 arg5 harg5 arg6 harg6 arg7 harg7 hc0 hc1 x0 x1 x2).2.1 S1024x1024.size (by sl_kernel_rfl) y
theorem scover0_A_1 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (arg7 : Memref sig .tc .vmem S1x1024 .f32) (harg7 : arg7.IsWhole) (hc0 : cond0_0 i) (hc1 : ¬cond0_1 i) (x0 : Vec F S1x512x1024 .f32) (x1 : Vec F S1024x1024 .bf16) (x2 : Vec F S1024x1024 .bf16) (y : S1x1024.Idx) :
    ∃ pc ∈ (kernelRun0_A c i arg2 harg2 arg3 harg3 arg4 harg4 arg5 harg5 arg6 harg6 arg7 harg7 hc0 hc1 x0 x1 x2).2.2.1, y ∈ pc.1.set :=
  View.cover_of_tiledL (kernelRun0_A c i arg2 harg2 arg3 harg3 arg4 harg4 arg5 harg5 arg6 harg6 arg7 harg7 hc0 hc1 x0 x1 x2).2.2.1 S1x1024.size (by sl_kernel_rfl) y
/-- What the case s = 0 leaves in the numerator accumulator. -/
def sout0_A_0 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (arg7 : Memref sig .tc .vmem S1x1024 .f32) (harg7 : arg7.IsWhole) (hc0 : cond0_0 i) (hc1 : ¬cond0_1 i) (x0 : Vec F S1x512x1024 .f32) (x1 : Vec F S1024x1024 .bf16) (x2 : Vec F S1024x1024 .bf16) : Vec F S1024x1024 .f32 :=
  VS0_0.read (Elt F) (VS0_0.writes (Elt F) VS0_0.junk (kernelRun0_A c i arg2 harg2 arg3 harg3 arg4 harg4 arg5 harg5 arg6 harg6 arg7 harg7 hc0 hc1 x0 x1 x2).2.1)
/-- What the case s = 0 leaves in the denominator accumulator. -/
def sout0_A_1 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (arg7 : Memref sig .tc .vmem S1x1024 .f32) (harg7 : arg7.IsWhole) (hc0 : cond0_0 i) (hc1 : ¬cond0_1 i) (x0 : Vec F S1x512x1024 .f32) (x1 : Vec F S1024x1024 .bf16) (x2 : Vec F S1024x1024 .bf16) : Vec F S1x1024 .f32 :=
  VS0_1.read (Elt F) (VS0_1.writes (Elt F) VS0_1.junk (kernelRun0_A c i arg2 harg2 arg3 harg3 arg4 harg4 arg5 harg5 arg6 harg6 arg7 harg7 hc0 hc1 x0 x1 x2).2.2.1)

theorem scover0_B_0 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (arg7 : Memref sig .tc .vmem S1x1024 .f32) (harg7 : arg7.IsWhole) (hc0 : ¬cond0_0 i) (hc1 : ¬cond0_1 i) (x0 : Vec F S1x512x1024 .f32) (x1 : Vec F S1024x1024 .bf16) (x2 : Vec F S1024x1024 .bf16) (xs0 : Vec F S1024x1024 .f32) (xs1 : Vec F S1x1024 .f32) (y : S1024x1024.Idx) :
    ∃ pc ∈ (kernelRun0_B c i arg2 harg2 arg3 harg3 arg4 harg4 arg5 harg5 arg6 harg6 arg7 harg7 hc0 hc1 x0 x1 x2 xs0 xs1).2.1, y ∈ pc.1.set :=
  View.cover_of_tiledL (kernelRun0_B c i arg2 harg2 arg3 harg3 arg4 harg4 arg5 harg5 arg6 harg6 arg7 harg7 hc0 hc1 x0 x1 x2 xs0 xs1).2.1 S1024x1024.size (by sl_kernel_rfl) y
theorem scover0_B_1 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (arg7 : Memref sig .tc .vmem S1x1024 .f32) (harg7 : arg7.IsWhole) (hc0 : ¬cond0_0 i) (hc1 : ¬cond0_1 i) (x0 : Vec F S1x512x1024 .f32) (x1 : Vec F S1024x1024 .bf16) (x2 : Vec F S1024x1024 .bf16) (xs0 : Vec F S1024x1024 .f32) (xs1 : Vec F S1x1024 .f32) (y : S1x1024.Idx) :
    ∃ pc ∈ (kernelRun0_B c i arg2 harg2 arg3 harg3 arg4 harg4 arg5 harg5 arg6 harg6 arg7 harg7 hc0 hc1 x0 x1 x2 xs0 xs1).2.2.1, y ∈ pc.1.set :=
  View.cover_of_tiledL (kernelRun0_B c i arg2 harg2 arg3 harg3 arg4 harg4 arg5 harg5 arg6 harg6 arg7 harg7 hc0 hc1 x0 x1 x2 xs0 xs1).2.2.1 S1x1024.size (by sl_kernel_rfl) y
/-- What a middle tile leaves in the numerator accumulator, over what the point before left. -/
def sout0_B_0 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (arg7 : Memref sig .tc .vmem S1x1024 .f32) (harg7 : arg7.IsWhole) (hc0 : ¬cond0_0 i) (hc1 : ¬cond0_1 i) (x0 : Vec F S1x512x1024 .f32) (x1 : Vec F S1024x1024 .bf16) (x2 : Vec F S1024x1024 .bf16) (xs0 : Vec F S1024x1024 .f32) (xs1 : Vec F S1x1024 .f32) : Vec F S1024x1024 .f32 :=
  VS0_0.read (Elt F) (VS0_0.writes (Elt F) VS0_0.junk (kernelRun0_B c i arg2 harg2 arg3 harg3 arg4 harg4 arg5 harg5 arg6 harg6 arg7 harg7 hc0 hc1 x0 x1 x2 xs0 xs1).2.1)
/-- What a middle tile leaves in the denominator accumulator. -/
def sout0_B_1 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (arg7 : Memref sig .tc .vmem S1x1024 .f32) (harg7 : arg7.IsWhole) (hc0 : ¬cond0_0 i) (hc1 : ¬cond0_1 i) (x0 : Vec F S1x512x1024 .f32) (x1 : Vec F S1024x1024 .bf16) (x2 : Vec F S1024x1024 .bf16) (xs0 : Vec F S1024x1024 .f32) (xs1 : Vec F S1x1024 .f32) : Vec F S1x1024 .f32 :=
  VS0_1.read (Elt F) (VS0_1.writes (Elt F) VS0_1.junk (kernelRun0_B c i arg2 harg2 arg3 harg3 arg4 harg4 arg5 harg5 arg6 harg6 arg7 harg7 hc0 hc1 x0 x1 x2 xs0 xs1).2.2.1)

theorem cover0_C_3 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (arg7 : Memref sig .tc .vmem S1x1024 .f32) (harg7 : arg7.IsWhole) (hc0 : ¬cond0_0 i) (hc1 : cond0_1 i) (x0 : Vec F S1x512x1024 .f32) (x1 : Vec F S1024x1024 .bf16) (x2 : Vec F S1024x1024 .bf16) (xs0 : Vec F S1024x1024 .f32) (xs1 : Vec F S1x1024 .f32) (y : S1x1024x1024.Idx) :
    ∃ pc ∈ (kernelRun0_C c i arg2 harg2 arg3 harg3 arg4 harg4 arg5 harg5 arg6 harg6 arg7 harg7 hc0 hc1 x0 x1 x2 xs0 xs1).1, y ∈ pc.1.set :=
  View.cover_of_tiledL (kernelRun0_C c i arg2 harg2 arg3 harg3 arg4 harg4 arg5 harg5 arg6 harg6 arg7 harg7 hc0 hc1 x0 x1 x2 xs0 xs1).1 S1x1024x1024.size (by sl_kernel_rfl) y
theorem scover0_C_0 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (arg7 : Memref sig .tc .vmem S1x1024 .f32) (harg7 : arg7.IsWhole) (hc0 : ¬cond0_0 i) (hc1 : cond0_1 i) (x0 : Vec F S1x512x1024 .f32) (x1 : Vec F S1024x1024 .bf16) (x2 : Vec F S1024x1024 .bf16) (xs0 : Vec F S1024x1024 .f32) (xs1 : Vec F S1x1024 .f32) (y : S1024x1024.Idx) :
    ∃ pc ∈ (kernelRun0_C c i arg2 harg2 arg3 harg3 arg4 harg4 arg5 harg5 arg6 harg6 arg7 harg7 hc0 hc1 x0 x1 x2 xs0 xs1).2.1, y ∈ pc.1.set :=
  View.cover_of_tiledL (kernelRun0_C c i arg2 harg2 arg3 harg3 arg4 harg4 arg5 harg5 arg6 harg6 arg7 harg7 hc0 hc1 x0 x1 x2 xs0 xs1).2.1 S1024x1024.size (by sl_kernel_rfl) y
theorem scover0_C_1 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (arg7 : Memref sig .tc .vmem S1x1024 .f32) (harg7 : arg7.IsWhole) (hc0 : ¬cond0_0 i) (hc1 : cond0_1 i) (x0 : Vec F S1x512x1024 .f32) (x1 : Vec F S1024x1024 .bf16) (x2 : Vec F S1024x1024 .bf16) (xs0 : Vec F S1024x1024 .f32) (xs1 : Vec F S1x1024 .f32) (y : S1x1024.Idx) :
    ∃ pc ∈ (kernelRun0_C c i arg2 harg2 arg3 harg3 arg4 harg4 arg5 harg5 arg6 harg6 arg7 harg7 hc0 hc1 x0 x1 x2 xs0 xs1).2.2.1, y ∈ pc.1.set :=
  View.cover_of_tiledL (kernelRun0_C c i arg2 harg2 arg3 harg3 arg4 harg4 arg5 harg5 arg6 harg6 arg7 harg7 hc0 hc1 x0 x1 x2 xs0 xs1).2.2.1 S1x1024.size (by sl_kernel_rfl) y
/-- What the last tile leaves in the output window's buffer: the context block. -/
def out0_C_3 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (arg7 : Memref sig .tc .vmem S1x1024 .f32) (harg7 : arg7.IsWhole) (hc0 : ¬cond0_0 i) (hc1 : cond0_1 i) (x0 : Vec F S1x512x1024 .f32) (x1 : Vec F S1024x1024 .bf16) (x2 : Vec F S1024x1024 .bf16) (xs0 : Vec F S1024x1024 .f32) (xs1 : Vec F S1x1024 .f32) : Vec F S1x1024x1024 .f32 :=
  VO0_3.read (Elt F) (VO0_3.writes (Elt F) VO0_3.junk (kernelRun0_C c i arg2 harg2 arg3 harg3 arg4 harg4 arg5 harg5 arg6 harg6 arg7 harg7 hc0 hc1 x0 x1 x2 xs0 xs1).1)
def sout0_C_0 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (arg7 : Memref sig .tc .vmem S1x1024 .f32) (harg7 : arg7.IsWhole) (hc0 : ¬cond0_0 i) (hc1 : cond0_1 i) (x0 : Vec F S1x512x1024 .f32) (x1 : Vec F S1024x1024 .bf16) (x2 : Vec F S1024x1024 .bf16) (xs0 : Vec F S1024x1024 .f32) (xs1 : Vec F S1x1024 .f32) : Vec F S1024x1024 .f32 :=
  VS0_0.read (Elt F) (VS0_0.writes (Elt F) VS0_0.junk (kernelRun0_C c i arg2 harg2 arg3 harg3 arg4 harg4 arg5 harg5 arg6 harg6 arg7 harg7 hc0 hc1 x0 x1 x2 xs0 xs1).2.1)
def sout0_C_1 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (arg7 : Memref sig .tc .vmem S1x1024 .f32) (harg7 : arg7.IsWhole) (hc0 : ¬cond0_0 i) (hc1 : cond0_1 i) (x0 : Vec F S1x512x1024 .f32) (x1 : Vec F S1024x1024 .bf16) (x2 : Vec F S1024x1024 .bf16) (xs0 : Vec F S1024x1024 .f32) (xs1 : Vec F S1x1024 .f32) : Vec F S1x1024 .f32 :=
  VS0_1.read (Elt F) (VS0_1.writes (Elt F) VS0_1.junk (kernelRun0_C c i arg2 harg2 arg3 harg3 arg4 harg4 arg5 harg5 arg6 harg6 arg7 harg7 hc0 hc1 x0 x1 x2 xs0 xs1).2.2.1)

/-- A placeholder for the output window's buffer at the points that do not store into it: nothing consults it, since
    there the window is neither written back nor read. -/
def idleOut : Vec F S1x1024x1024 .f32 := VO0_3.read (Elt F) (VO0_3.writes (Elt F) VO0_3.junk [])

/-! ## What the three buffers hold after each point -/

/-- The output buffer, the numerator accumulator, the denominator accumulator. -/
abbrev Out3 (F : FTy → Type) [FloatOps F] : Type := Vec F S1x1024x1024 .f32 × Vec F S1024x1024 .f32 × Vec F S1x1024 .f32

theorem ncond1_of_mod0 (t : Fin cfg0.N) (h0 : t.val % 8 = 0) : ¬cond0_1 (grid0.coords t) :=
  fun h => by have h7 := (hcond0_1 t).mp h; omega

/-- A point of the first tile. -/
def caseA (c : Dev nD) (t : Fin cfg0.N) (h0 : t.val % 8 = 0) : Out3 F :=
  (idleOut,
   sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (ncond1_of_mod0 t h0) (iblk0 V c 0 t) (iblk0 V c 1 t) (iblk0 V c 2 t),
   sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (ncond1_of_mod0 t h0) (iblk0 V c 0 t) (iblk0 V c 1 t) (iblk0 V c 2 t))
/-- A point of a middle tile, over the accumulators `p0`, `p1` the point before left. -/
def caseB (c : Dev nD) (t : Fin cfg0.N) (h0 : ¬t.val % 8 = 0) (h1 : ¬t.val % 8 = 7) (p0 : Vec F S1024x1024 .f32) (p1 : Vec F S1x1024 .f32) : Out3 F :=
  (idleOut,
   sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) p0 p1,
   sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) p0 p1)
/-- A point of the last tile, over the accumulators the point before left. -/
def caseC (c : Dev nD) (t : Fin cfg0.N) (h0 : ¬t.val % 8 = 0) (h1 : t.val % 8 = 7) (p0 : Vec F S1024x1024 .f32) (p1 : Vec F S1x1024 .f32) : Out3 F :=
  (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) p0 p1,
   sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) p0 p1,
   sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) p0 p1)

/-- THE ACCUMULATION: what the three buffers hold after the body at position `n`, by recursion on the position: the case
    the position is in, run on the point's input blocks and on the accumulators the position before left. -/
def outsAt0 (c : Dev nD) : (n : ℕ) → n < cfg0.N → Out3 F
  | 0, hn => caseA V c ⟨0, hn⟩ (Nat.zero_mod 8)
  | n + 1, hn =>
    if h0 : (n + 1) % 8 = 0 then caseA V c ⟨n + 1, hn⟩ h0
    else if h1 : (n + 1) % 8 = 7 then
      caseC V c ⟨n + 1, hn⟩ h0 h1 (outsAt0 c n (Nat.lt_of_succ_lt hn)).2.1 (outsAt0 c n (Nat.lt_of_succ_lt hn)).2.2
    else
      caseB V c ⟨n + 1, hn⟩ h0 h1 (outsAt0 c n (Nat.lt_of_succ_lt hn)).2.1 (outsAt0 c n (Nat.lt_of_succ_lt hn)).2.2

theorem outsAt0_A (c : Dev nD) (t : Fin cfg0.N) (h0 : t.val % 8 = 0) : outsAt0 V c t.val t.isLt = caseA V c t h0 := by
  obtain ⟨n, hn⟩ := t
  cases n with
  | zero => rfl
  | succ n => exact (dif_pos h0).trans rfl

theorem outsAt0_B (c : Dev nD) (t : Fin cfg0.N) (h0 : ¬t.val % 8 = 0) (h1 : ¬t.val % 8 = 7) :
    outsAt0 V c t.val t.isLt = caseB V c t h0 h1 (outsAt0 V c (t.val - 1) (Nat.lt_of_le_of_lt (Nat.sub_le _ _) t.isLt)).2.1
      (outsAt0 V c (t.val - 1) (Nat.lt_of_le_of_lt (Nat.sub_le _ _) t.isLt)).2.2 := by
  obtain ⟨n, hn⟩ := t
  cases n with
  | zero => exact absurd (Nat.zero_mod 8) h0
  | succ n => exact (dif_neg h0).trans ((dif_neg h1).trans rfl)

theorem outsAt0_C (c : Dev nD) (t : Fin cfg0.N) (h0 : ¬t.val % 8 = 0) (h1 : t.val % 8 = 7) :
    outsAt0 V c t.val t.isLt = caseC V c t h0 h1 (outsAt0 V c (t.val - 1) (Nat.lt_of_le_of_lt (Nat.sub_le _ _) t.isLt)).2.1
      (outsAt0 V c (t.val - 1) (Nat.lt_of_le_of_lt (Nat.sub_le _ _) t.isLt)).2.2 := by
  obtain ⟨n, hn⟩ := t
  cases n with
  | zero => exact absurd (Nat.zero_mod 8) h0
  | succ n => exact (dif_neg h0).trans ((dif_pos h1).trans rfl)

/-! ## The invariant that carries the accumulators -/

/-- Before position `n`: at the first point the class invariant (the accumulators at anything); afterwards each
    accumulator at what the position before left in it, beside the foreign staging buffers and the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ Rest1 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2) ∗ Rest1 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2) ∗ Rest1 c) ∗ (∃ r, prngReg c r)) := by
  cases n with
  | zero => exact absurd rfl hz
  | succ n => rfl

/-! ## The pipeline's proof data -/

/-- Region 0's proof data on core `c`: the arrays as the region finds them; after the body at point `t` each input's
    buffer at its block and the output's at the accumulation's first component; the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Cert.KernelIdeal.Fr

end
-- ==== Proof.KI.Body0.lean ====
/-
  Region 0's body obligation: at every grid point the body, handed the inputs' blocks, the output window's buffer and
  the two accumulators as the invariant holds them, runs and hands back the inputs untouched, the accumulators at
  this point's contents, and the output's buffer either untouched (tiles 0..6) or holding the context block (tile 7).
-/
import proofs.«154809_j59734405153127_1_alg».proof.Proof.KI.Frame0

-- membership in a rectangle of full-size extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 8000000 in
/-- The body at any point: the closed forms of the two conditions say which case the point is in; the invariant hands the
    body the accumulators (at anything at the very first point, at what the point before left afterwards) and takes
    them back at this point's contents, which are the found pieces read back because the pieces cover the buffers. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 8 = 0
  · have hc1 : ¬cond0_1 (grid0.coords t) := ncond1_of_mod0 t h0
    rw [Dat.leavesExact_idle (dat0 V c) 3 t (idleAt0_3 t hc1) (noFlush0_3 t hc1)]
    rw [outsAt0_A V c t h0]
    unfold caseA sout0_A_0 sout0_A_1; (try dsimp only)
    by_cases hz : t.val = 0
    · rw [PhiS_castSucc V c t, PhiS_zero V c _ _ hz, PhiA0_eq]
      iintro ⟨⟨⟨HS0, HS1, HR⟩, Hg⟩, Ho, ⟨%d0, H0⟩, ⟨%d1, H1⟩, ⟨%d2, H2⟩, ⟨%d3, H3⟩⟩
      iapply ((kernelRun0_A c (grid0.coords t) _ _ _ _ _ _ _ _ _ _ _ _ ((hcond0_0 t).mpr h0) hc1 (iblk0 V c 0 t) (iblk0 V c 1 t) (iblk0 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_A_0 c _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩⟩
      iapply ((kernelRun0_A c (grid0.coords t) _ _ _ _ _ _ _ _ _ _ _ _ ((hcond0_0 t).mpr h0) hc1 (iblk0 V c 0 t) (iblk0 V c 1 t) (iblk0 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_A_0 c _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := by omega
    by_cases h1 : t.val % 8 = 7
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold caseC out0_C_3 sout0_C_0 sout0_C_1; (try dsimp only)
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩⟩
      iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_C_0 c _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _ _ _ _)
    · have hc1 : ¬cond0_1 (grid0.coords t) := fun h => h1 ((hcond0_1 t).mp h)
      rw [Dat.leavesExact_idle (dat0 V c) 3 t (idleAt0_3 t hc1) (noFlush0_3 t hc1)]
      rw [outsAt0_B V c t h0 h1]
      unfold caseB sout0_B_0 sout0_B_1; (try dsimp only)
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩⟩
      iapply ((kernelRun0_B c (grid0.coords t) _ _ _ _ _ _ _ _ _ _ _ _ (fun h => h0 ((hcond0_0 t).mp h)) hc1 (iblk0 V c 0 t) (iblk0 V c 1 t) (iblk0 V c 2 t) _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_B_0 c _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region (the class invariant) is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class invariant back: the accumulators' contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 32 := N_0; omega
  rw [show (dat0 V c).Φ (Fin.last cfg0.N) = PhiS V c (Fin.last cfg0.N).val (Nat.le_of_lt_succ (Fin.last cfg0.N).isLt) from rfl,
    PhiS_pos V c _ _ hne, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

end Cert.KernelIdeal.Fr

end
-- ==== Proof.KI.Reg1.lean ====
/-
  Region 1 (the second pallas_call: out[b] = ctx[b] · Qᵀ, one grid point per batch and block of 512 positions),
  at the buffer contents `V` the region is entered with: each window's block at a point, what the body leaves in
  the output window's buffer as a closed function of the three input blocks, the body's triple, the pipeline's
  proof data and the body obligation. The body has one control case, every load and store is a whole literal
  rectangle, and nothing is kept from point to point.
-/
import proofs.«154809_j59734405153127_1_alg».proof.Proof.Gen.KernelIdeal.Launch
import proofs.«154809_j59734405153127_1_alg».proof.Proof.Gen.KernelIdeal.Skeleton
import proofs.«154809_j59734405153127_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extents 1024 × 512: the elaborator's structural look recurses once per
-- coordinate of the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same of input window 2. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1x1024x1024 := Rect.unit (s := S1x1024x1024) ![0, 0, 0] S1x1024x1024.size inb_S1x1024x1024_S1x1024x1024_0_0_0
abbrev r1_1 : Rect S1x512x1024 := Rect.unit (s := S1x512x1024) ![0, 0, 0] S1x512x1024.size inb_S1x512x1024_S1x512x1024_0_0_0
abbrev r1_2 : Rect S1024x1024 := Rect.unit (s := S1024x1024) ![0, 0] S1024x1024.size inb_S1024x1024_S1024x1024_0_0
abbrev r1_3 : Rect S1x1024x512 := Rect.unit (s := S1x1024x512) ![0, 0, 0] S1x1024x512.size inb_S1x1024x512_S1x1024x512_0_0_0

/-! ## What the body leaves in the output window's buffer -/

/-- Window 3's staging buffer after the body, from the input windows' blocks: its one store as a piece. -/
def out1_3 (x0 : Vec F S1x1024x1024 .f32) (x1 : Vec F S1x512x1024 .f32) (x2 : Vec F S1024x1024 .bf16) : Vec F S1x1024x512 .f32 :=
  View.canon [⟨r1_3, k1_pay1 (View.ld x0 r1_0) (View.ld x1 r1_1) (View.ld x2 r1_2)⟩]

/-- The store tiles the buffer, so it covers it. -/
theorem cover1_3 (p0 : Vec F S1x1024x512 .f32) (y : S1x1024x512.Idx) :
    ∃ pc ∈ ([⟨r1_3, p0⟩] : List (View.Piece (Elt F) S1x1024x512 .f32)), y ∈ pc.1.set :=
  View.cover_of_tiled [⟨r1_3, p0⟩] S1x1024x512.size (by rfl) y

/-! ## The body's triple -/

set_option maxHeartbeats 1000000 in
/-- The kernel body on whole staging memrefs, the inputs' at read contents `x0`, `x1`, `x2` and the output's at
    anything, runs to the continuation holding the inputs' as they were and the output's at `out1_3` of the inputs'. -/
theorem sound_kernel1 (c : Dev nD) (E : Set ℕ) (i : grid1.Coords)
    (arg2 : Memref sig .tc .vmem S1x1024x1024 .f32) (harg2 : arg2.IsWhole) (arg3 : Memref sig .tc .vmem S1x512x1024 .f32) (harg3 : arg3.IsWhole)
    (arg4 : Memref sig .tc .vmem S1024x1024 .bf16) (harg4 : arg4.IsWhole) (arg5 : Memref sig .tc .vmem S1x1024x512 .f32) (harg5 : arg5.IsWhole)
    (x0 : Vec F S1x1024x1024 .f32) (x1 : Vec F S1x512x1024 .f32) (x2 : Vec F S1024x1024 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__stage2_kernel i arg2 harg2 arg3 harg3 arg4 harg4 arg5 harg5) K := by
  simp only [cc1__stage2_kernel_eq_skeleton]; unfold cc1__stage2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the pipeline on core `c`: the arrays as the region finds them (`V`); after the body at point
    `t` each input's buffer at its block and the output's at `out1_3` of the three input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Assembly.lean ====
/-
  The whole run of the kernel program, at any float instance: the three weight casts on the host, then the two kernel
  regions, as a chain of segments. Between two segments every unscoped buffer of the core is held at a named
  contents: as launched; after the casts; after region 0 (its output array at what its write-backs leave, every
  other buffer as before); after region 1 (the same for its output array). Every weakly fair execution terminates
  without a fault in a state whose unscoped buffers hold that last contents. The frame claim (the four argument
  arrays end as launched) and the value of the result array are both read off it.
-/
import proofs.«154809_j59734405153127_1_alg».proof.Proof.KI.Body0
import proofs.«154809_j59734405153127_1_alg».proof.Proof.KI.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full-size extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the three casts of the weight matrices (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit (the end of the program): its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

/-- The query is an input array of both regions (read, never written) and no cast writes it. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 1).trans (((dat1 (V2 m ρ) c).arrAt_in 1 rfl _).trans (A_eq1 (V2 m ρ) c 1))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
/-- `main_arg1` is no array of either region and no cast writes it: it ends as launched. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
/-- `main_arg2` is no array of either region and no cast writes it: it ends as launched. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
/-- `main_arg3` is no array of either region and no cast writes it: it ends as launched. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The result array at the end is what region 1's write-backs leave. -/
theorem W3_main_v4 (c : Dev nD) : W3 m ρ c (Proc.devRef .tc main_v4) = (dat1 (V2 m ρ) c).arrAt 3 cfg1.N :=
  W3_arr m ρ c 3
/-- Region 1 finds in the context array what region 0's write-backs left. -/
theorem W2_main_v3 (c : Dev nD) : W2 m ρ c (Proc.devRef .tc main_v3) = (dat0 (V1 m ρ) c).arrAt 3 cfg0.N :=
  W2_arr m ρ c 3
/-- Region 1 finds the query and the cast Wq as region 0 found them. -/
theorem W2_main_arg0 (c : Dev nD) : W2 m ρ c (Proc.devRef .tc main_arg0) = W1 m ρ c (Proc.devRef .tc main_arg0) :=
  (W2_arr m ρ c 0).trans (((dat0 (V1 m ρ) c).arrAt_in 0 rfl _).trans (A_eq0 (V1 m ρ) c 0))
theorem W2_main_v2 (c : Dev nD) : W2 m ρ c (Proc.devRef .tc main_v2) = W1 m ρ c (Proc.devRef .tc main_v2) :=
  W2_of_ne m ρ c main_v2 (by decide)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0: entered from every unscoped buffer at `W1`, left at `W2`. The generator register and the scoped rest go
    into the invariant through the class invariant and come back the same way; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest (Ix := Unit) (Name := ℕ) (U := UR sig nD τ) (Lvl := ℕ) (Val := Elt F) spec0 c ∗ ∃ r, prngReg c r) : sProp 𝕄) ⊢ (pdats m ρ 0 c).Φ 0 :=
      hin0 (V1 m ρ) c
    iintro ⟨Hp, -, Hr⟩
    iapply h
    isplitl [Hr]; · iexact Hr
    iexact Hp
  hout c := by
    rw [Pipeline.ownSems0_none]
    have h : (pdats m ρ 0 c).Φ (Fin.last _) ⊢ (iprop(Pipeline.scopedRest (Ix := Unit) (Name := ℕ) (U := UR sig nD τ) (Lvl := ℕ) (Val := Elt F) spec0 c ∗ ∃ r, prngReg c r) : sProp 𝕄) :=
      hout0 (V1 m ρ) c
    iintro HP
    ihave H := h $$ HP
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W2`, left at `W3`, what the launch reads at the end. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing faulting,
    and in every final state each unscoped buffer of each core holds the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.KernelIdeal.Fr

end
-- ==== Proof.KI.Casts.lean ====
/-
  What the host casts leave, at the extended reals: a change of float format is the identity there, so after the three
  casts the bf16 copies of the weight matrices hold the weights themselves, and the query is untouched.
-/
import proofs.«154809_j59734405153127_1_alg».proof.Proof.KI.Assembly
import Idealize.ShloMosaic.Lib.StableHlo.Run
import Idealize.ShloMosaic.PureOps.Ideal

noncomputable section

namespace Cert.KernelIdeal.FrAll

open Cert.KernelIdeal Cert.KernelIdeal.Gen Cert.KernelIdeal.Fr
open Idealize.ShloMosaic Idealize.ShloMosaic.TcCoe Idealize.SL.Sem Idealize.ShloMosaic.StableHlo

variable (m : (ℓ : Loc nD τ sig) → Buf (Elt Ideal) ℓ) (ρ : Dev nD → PrngReg)

/-- The bf16 copy of Wk holds Wk. -/
theorem W1_main_v0 (c : Dev nD) :
    (W1 m ρ c (Proc.devRef .tc main_v0) : S1024x1024.Idx → EReal) = (m ((c : Thread nD τ).loc main_arg2) : S1024x1024.Idx → EReal) := by
  show StableHlo.after hostOps0 (fun b => m (c, b)) (Proc.devRef .tc main_v0) = _
  after_results; rfl
/-- The bf16 copy of Wv holds Wv. -/
theorem W1_main_v1 (c : Dev nD) :
    (W1 m ρ c (Proc.devRef .tc main_v1) : S1024x1024.Idx → EReal) = (m ((c : Thread nD τ).loc main_arg3) : S1024x1024.Idx → EReal) := by
  show StableHlo.after hostOps0 (fun b => m (c, b)) (Proc.devRef .tc main_v1) = _
  after_results; rfl
/-- The bf16 copy of Wq holds Wq. -/
theorem W1_main_v2 (c : Dev nD) :
    (W1 m ρ c (Proc.devRef .tc main_v2) : S1024x1024.Idx → EReal) = (m ((c : Thread nD τ).loc main_arg1) : S1024x1024.Idx → EReal) := by
  show StableHlo.after hostOps0 (fun b => m (c, b)) (Proc.devRef .tc main_v2) = _
  after_results; rfl
/-- No cast writes the query. -/
theorem W1_main_arg0 (c : Dev nD) :
    W1 m ρ c (Proc.devRef .tc main_arg0) = m ((c : Thread nD τ).loc main_arg0) := by
  show StableHlo.after hostOps0 (fun b => m (c, b)) (Proc.devRef .tc main_arg0) = _
  after_results

end Cert.KernelIdeal.FrAll

end
-- ==== Proof.Spec.lean ====
/-
  The function both programs compute, index by index, over the extended reals.

  With x the query (4 × 4096 × 1024) and w a weight matrix (1024 × 1024):
    lin x w b s d   = Σ_e x[b,s,e] · w[e,d]                       (a projection)
    feat x w b s d  = max (lin x w b s d) 0 + 1                    (the feature map  relu(·) + 1)
    num b d e       = Σ_s feat_k[b,s,d] · lin_v[b,s,e]             (Kᵀ V)
    den b e         = 0 + Σ_s feat_k[b,s,e]                        (the column sums of K)
    ctx b d e       = num b d e / (den b e + ε)                    (the denominator broadcast over rows d)
    out b d s       = Σ_e ctx[b,d,e] · feat_q[b,s,e]               (ctx · Qᵀ)
  The literals 0, 1 and ε are kept as their binary words: both programs spell the same words.
-/
import Idealize.ShloMosaic.PureOps.Ideal
import Idealize.ShloMosaic.Lib.ValueIdx

noncomputable section

namespace Cert.Spec

open Idealize.ShloMosaic Idealize.ShloMosaic.ValueIdx

/-- An array of extended reals over a literal rank-3 shape. -/
abbrev A3 (a b c : Nat) : Type := (⟨3, ![a, b, c]⟩ : Shape).Idx → EReal
/-- An array of extended reals over a literal rank-2 shape. -/
abbrev A2 (a b : Nat) : Type := (⟨2, ![a, b]⟩ : Shape).Idx → EReal

/-- One entry of the projection x · w. -/
def lin (x : A3 4 4096 1024) (w : A2 1024 1024) (b : Fin 4) (s : Fin 4096) (d : Fin 1024) : EReal :=
  ∑ e : Fin 1024, x (ix3 b s e) * w (ix2 e d)

/-- One entry of the feature map relu(x · w) + 1. -/
def feat (x : A3 4 4096 1024) (w : A2 1024 1024) (b : Fin 4) (s : Fin 4096) (d : Fin 1024) : EReal :=
  max (lin x w b s d) (Ideal.ofBits .f32 0x00000000#32) + Ideal.ofBits .f32 0x3F800000#32

/-- Kᵀ V: the sum over all 4096 positions of a batch. -/
def num (x : A3 4 4096 1024) (wk wv : A2 1024 1024) (b : Fin 4) (d e : Fin 1024) : EReal :=
  ∑ s : Fin 4096, feat x wk b s d * lin x wv b s e

/-- The column sums of K, from the initial value zero. -/
def den (x : A3 4 4096 1024) (wk : A2 1024 1024) (b : Fin 4) (e : Fin 1024) : EReal :=
  Ideal.ofBits .f32 0x00000000#32 + ∑ s : Fin 4096, feat x wk b s e

/-- The context: Kᵀ V divided, column by column, by the column sums of K plus ε. -/
def ctx (x : A3 4 4096 1024) (wk wv : A2 1024 1024) : A3 4 1024 1024 := fun j =>
  Ideal.div (num x wk wv (j 0) (j 1) (j 2)) (den x wk (j 0) (j 2) + Ideal.ofBits .f32 0x358637BD#32)

/-- A context times Qᵀ. -/
def out (cx : A3 4 1024 1024) (x : A3 4 4096 1024) (wq : A2 1024 1024) : A3 4 1024 4096 := fun j =>
  ∑ e : Fin 1024, cx (ix3 (j 0) (j 1) e) * feat x wq (j 0) (j 2) e

/-- The whole result as one function of the four argument arrays. -/
def G (x : A3 4 4096 1024) (wq wk wv : A2 1024 1024) : A3 4 1024 4096 :=
  out (ctx x wk wv) x wq

end Cert.Spec

end
-- ==== Proof.KI.Reg1Value.lean ====
/-
  What region 1 leaves in its output array, at the extended reals: the body's payload at an index, and the
  array after the region's last point as one function of the three arrays the region reads.
-/
import proofs.«154809_j59734405153127_1_alg».proof.Proof.KI.Reg1
import proofs.«154809_j59734405153127_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.FrValue

open Cert.KernelIdeal Cert.KernelIdeal.Gen Cert.KernelIdeal.Fr Idealize.ShloMosaic Idealize.ShloMosaic.TcCoe Idealize.SL.Sem
open Idealize.ShloMosaic.ValueIdx
open Idealize.ShloMosaic.Pipeline (Dat)

/-! ## The two matrix products at an index -/

/-- The non-contracted coordinates of the two products' operand indices. -/
theorem r1_mm1_lhs0 (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem r1_mm1_rhs1 (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl
theorem r1_mm2_lhs0 (i : S1024x512.Idx) (q : dot_S1024x1024_S512x1024_S1024x512_1_1_0_0_n_n.contr.Idx) : (dot_S1024x1024_S512x1024_S1024x512_1_1_0_0_n_n.lhsIdx i q 0).val = (i 0).val := by
  unfold DotDims.lhsIdx
  rw [dif_neg (show ¬(0 : Fin S1024x1024.rank) ∈ dot_S1024x1024_S512x1024_S1024x512_1_1_0_0_n_n.lhsBatch by decide), dif_pos (show (0 : Fin S1024x1024.rank) ∈ dot_S1024x1024_S512x1024_S1024x512_1_1_0_0_n_n.lhsNonContracting by decide)]
  rfl
theorem r1_mm2_rhs0 (i : S1024x512.Idx) (q : dot_S1024x1024_S512x1024_S1024x512_1_1_0_0_n_n.contr.Idx) : (dot_S1024x1024_S512x1024_S1024x512_1_1_0_0_n_n.rhsIdx i q 0).val = (i 1).val := by
  unfold DotDims.rhsIdx
  rw [dif_neg (show ¬(0 : Fin S512x1024.rank) ∈ dot_S1024x1024_S512x1024_S1024x512_1_1_0_0_n_n.rhsBatch by decide), dif_pos (show (0 : Fin S512x1024.rank) ∈ dot_S1024x1024_S512x1024_S1024x512_1_1_0_0_n_n.rhsNonContracting by decide)]
  rfl

/-- The feature product (positions × features, contracting the model axis) at an index. -/
theorem r1_mm1_apply (a : FVec Ideal S512x1024 .bf16) (b : FVec Ideal S1024x1024 .bf16) (r : Fin 512) (e : Fin 1024) :
    matmul dot_S512x1024_S1024x1024_S512x1024_1_0_0_1_n_n none a b (constant S512x1024 .f32 0x00000000#32) (ix2 r e)
      = ∑ k : Fin 1024, a (ix2 r k) * b (ix2 k e) := by
  refine (Ideal.matmul_constant_zero_apply dot_S512x1024_S1024x1024_S512x1024_1_0_0_1_n_n none a b (ix2 r e)).trans ?_
  rw [← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r e) ((contrEquiv1 dot_S512x1024_S1024x1024_S512x1024_1_0_0_1_n_n 1024 rfl rfl).symm k) = ix2 r k := funext fun x => Fin.ext (by
    match x with
    | ⟨0, _⟩ => exact r1_mm1_lhs0 _ _
    | ⟨1, _⟩ => exact (dot_S512x1024_S1024x1024_S512x1024_1_0_0_1_n_n.lhsIdx_val_of_single rfl _ _).trans hk)
  have er : dot_S512x1024_S1024x1024_S512x1024_1_0_0_1_n_n.rhsIdx (ix2 r e) ((contrEquiv1 dot_S512x1024_S1024x1024_S512x1024_1_0_0_1_n_n 1024 rfl rfl).symm k) = ix2 k e := funext fun x => Fin.ext (by
    match x with
    | ⟨0, _⟩ => exact (dot_S512x1024_S1024x1024_S512x1024_1_0_0_1_n_n.rhsIdx_val_of_single rfl _ _).trans hk
    | ⟨1, _⟩ => exact r1_mm1_rhs1 _ _)
  rw [el, er]

/-- The output product (context rows × positions, contracting the feature axis of both) at an index. -/
theorem r1_mm2_apply (a : FVec Ideal S1024x1024 .bf16) (b : FVec Ideal S512x1024 .bf16) (d : Fin 1024) (r : Fin 512) :
    matmul dot_S1024x1024_S512x1024_S1024x512_1_1_0_0_n_n none a b (constant S1024x512 .f32 0x00000000#32) (ix2 d r)
      = ∑ e : Fin 1024, a (ix2 d e) * b (ix2 r e) := by
  refine (Ideal.matmul_constant_zero_apply dot_S1024x1024_S512x1024_S1024x512_1_1_0_0_n_n none a b (ix2 d r)).trans ?_
  rw [← Equiv.sum_comp (contrEquiv1 dot_S1024x1024_S512x1024_S1024x512_1_1_0_0_n_n 1024 rfl rfl).symm]
  refine Finset.sum_congr rfl fun k _ => ?_
  have hk := contrEquiv1_symm_val dot_S1024x1024_S512x1024_S1024x512_1_1_0_0_n_n 1024 rfl rfl k
  have el : dot_S1024x1024_S512x1024_S1024x512_1_1_0_0_n_n.lhsIdx (ix2 d r) ((contrEquiv1 dot_S1024x1024_S512x1024_S1024x512_1_1_0_0_n_n 1024 rfl rfl).symm k) = ix2 d k := funext fun x => Fin.ext (by
    match x with
    | ⟨0, _⟩ => exact r1_mm2_lhs0 _ _
    | ⟨1, _⟩ => exact (dot_S1024x1024_S512x1024_S1024x512_1_1_0_0_n_n.lhsIdx_val_of_single rfl _ _).trans hk)
  have er : dot_S1024x1024_S512x1024_S1024x512_1_1_0_0_n_n.rhsIdx (ix2 d r) ((contrEquiv1 dot_S1024x1024_S512x1024_S1024x512_1_1_0_0_n_n 1024 rfl rfl).symm k) = ix2 r k := funext fun x => Fin.ext (by
    match x with
    | ⟨0, _⟩ => exact r1_mm2_rhs0 _ _
    | ⟨1, _⟩ => exact (dot_S1024x1024_S512x1024_S1024x512_1_1_0_0_n_n.rhsIdx_val_of_single rfl _ _).trans hk)
  rw [el, er]

/-! ## The body's payload at an index -/

/-- The stored block at row `d`, position `r`: the context row times the feature row of the position, the features
    being the projection's relu plus one. The format changes are the identity on the extended reals. -/
theorem k1_pay1_apply (v0 : Vec Ideal S1x1024x1024 .f32) (v3 : Vec Ideal S1x512x1024 .f32) (v6 : Vec Ideal S1024x1024 .bf16)
    (d : Fin 1024) (r : Fin 512) :
    Cert.KernelIdeal.Gen.k1_pay1 (F := Ideal) v0 v3 v6 (ix3 0 d r)
      = ∑ e : Fin 1024, v0 (ix3 0 d e) * (max (∑ k : Fin 1024, v3 (ix3 0 r k) * v6 (ix2 k e)) (Ideal.ofBits .f32 0x00000000#32) + Ideal.ofBits .f32 0x3F800000#32) := by
  unfold k1_pay1
  refine (shapeCast_ab_1ab_apply _ shapeCasts_S1024x512_S1x1024x512 0 d r).trans ?_
  refine (r1_mm2_apply _ _ d r).trans ?_
  refine Finset.sum_congr rfl fun e _ => ?_
  rw [truncf_apply, truncf_apply, addf_apply, maximumf_apply, broadcast_apply, broadcast_apply]
  rw [shapeCast_1ab_ab_apply v0 shapeCasts_S1x1024x1024_S1024x1024 d e]
  rw [r1_mm1_apply]
  refine congrArg (fun s : EReal => v0 (ix3 0 d e) * (max s (Ideal.ofBits .f32 0x00000000#32) + Ideal.ofBits .f32 0x3F800000#32))
    (Finset.sum_congr rfl fun k _ => ?_)
  rw [truncf_apply, shapeCast_1ab_ab_apply v3 shapeCasts_S1x512x1024_S512x1024 r k, shapeCast_self]

/-! ## From the blocks to the array -/

variable (V : (c : Dev nD) → (b : Ref sig .tc) → Buf (Elt Ideal) ((c : Thread nD τ).loc b))

/-- The zero offsets of the body's whole-buffer rectangles. -/
theorem r1_hz3 : (![0, 0, 0] : Fin 3 → Nat) = fun _ => 0 := funext fun a => by fin_cases a <;> rfl
theorem r1_hz2 : (![0, 0] : Fin 2 → Nat) = fun _ => 0 := funext fun a => by fin_cases a <;> rfl

/-- The printed index maps, decided over the grid: the context block is the output block's batch, whole; the query
    block is the output block's batch and position block; the weight block is the whole matrix. -/
theorem r1_idx_facts : ∀ t : Fin cfg1.N,
    win1_0.index t (0 : Fin 3) = win1_3.index t (0 : Fin 3) ∧ win1_0.index t (1 : Fin 3) = 0 ∧ win1_0.index t (2 : Fin 3) = 0
    ∧ win1_1.index t (0 : Fin 3) = win1_3.index t (0 : Fin 3) ∧ win1_1.index t (1 : Fin 3) = win1_3.index t (2 : Fin 3) ∧ win1_1.index t (2 : Fin 3) = 0
    ∧ win1_2.index t (0 : Fin 2) = 0 ∧ win1_2.index t (1 : Fin 2) = 0
    ∧ win1_3.index t (0 : Fin 3) ≤ 3 ∧ win1_3.index t (1 : Fin 3) = 0 ∧ win1_3.index t (2 : Fin 3) ≤ 7 :=
  (by decide +kernel : ∀ t : Fin grid1.N, _)

/-- Every (batch, position block) pair is some point's output block. -/
theorem r1_idx_onto : ∀ (q0 : Fin 4) (q2 : Fin 8), ∃ t : Fin cfg1.N, win1_3.index t = ![q0.val, 0, q2.val] :=
  (by decide +kernel : ∀ (q0 : Fin 4) (q2 : Fin 8), ∃ t : Fin grid1.N, win1_3.index t = ![q0.val, 0, q2.val])

/-- What point `t` writes back is block `t` of the one function `Spec.out` of the three arrays the region reads, as the
    region finds them: the payload at (row, position) of the block against `Spec.out` at the block's place in the array. -/
theorem r1_flushed3_eq (c : Dev nD) (t : Fin cfg1.N) :
    (dat1 V c).flushed 3 t = ((cfg1.win 3).blk t).view.read (Elt Ideal) (Cert.Spec.out (V c main_v3) (V c main_arg0) (V c main_v2)) := by
  show (cfg1.win 3).cut (grid1.coords t) ((dat1 V c).after 3 t) = _
  rw [after1_3]
  unfold out1_3
  rw [View.canon_unit_zero r1_hz3]
  simp only [View.ld_unit_zero (S := S1x1024x1024) r1_hz3, View.ld_unit_zero (S := S1x512x1024) r1_hz3, View.ld_unit_zero (S := S1024x1024) r1_hz2]
  obtain ⟨e0, e1, e2, e3, e4, e5, e6, e7, e8, e9, e10⟩ := r1_idx_facts t
  funext j
  obtain ⟨u, d, r, rfl⟩ : ∃ (u : Fin 1) (d : Fin 1024) (r : Fin 512), j = ix3 u d r := ⟨j 0, j 1, j 2, eq_ix3 j⟩
  obtain rfl : u = 0 := Subsingleton.elim _ _
  show k1_pay1 (F := Ideal) (iblk1 V c 0 t) (iblk1 V c 1 t) (iblk1 V c 2 t) (ix3 0 d r)
     = Cert.Spec.out (V c main_v3) (V c main_arg0) (V c main_v2) (((cfg1.win 3).blk t).view.emb (ix3 (0 : Fin 1) d r))
  refine (k1_pay1_apply _ _ _ d r).trans ?_
  have hE0 : ((((cfg1.win 3).blk t).view.emb (ix3 (0 : Fin 1) d r)) 0 : ℕ) = win1_3.index t (0 : Fin 3) := by
    show win1_3.index t (0 : Fin 3) * 1 + 1 * 0 = _; omega
  have hE1 : ((((cfg1.win 3).blk t).view.emb (ix3 (0 : Fin 1) d r)) 1 : ℕ) = d.val := by
    show win1_3.index t (1 : Fin 3) * 1024 + 1 * d.val = _; omega
  have hE2 : ((((cfg1.win 3).blk t).view.emb (ix3 (0 : Fin 1) d r)) 2 : ℕ) = win1_3.index t (2 : Fin 3) * 512 + r.val := by
    show win1_3.index t (2 : Fin 3) * 512 + 1 * r.val = _; omega
  generalize ((cfg1.win 3).blk t).view.emb (ix3 (0 : Fin 1) d r) = E at hE0 hE1 hE2 ⊢
  unfold Cert.Spec.out Cert.Spec.feat Cert.Spec.lin
  refine Finset.sum_congr rfl fun e _ => ?_
  have a0 : iblk1 V c 0 t (ix3 (0 : Fin 1) d e) = V c main_v3 (ix3 (E 0) (E 1) e) := by
    show V c main_v3 (((cfg1.win 0).blk t).view.emb (ix3 (0 : Fin 1) d e)) = _
    refine congrArg (V c main_v3) (funext fun a => Fin.ext ?_)
    match a with
    | ⟨0, _⟩ => show win1_0.index t (0 : Fin 3) * 1 + 1 * 0 = (E 0).val; omega
    | ⟨1, _⟩ => show win1_0.index t (1 : Fin 3) * 1024 + 1 * d.val = (E 1).val; omega
    | ⟨2, _⟩ => show win1_0.index t (2 : Fin 3) * 1024 + 1 * e.val = e.val; omega
  have a1 : ∀ k : Fin 1024, iblk1 V c 1 t (ix3 (0 : Fin 1) r k) = V c main_arg0 (ix3 (E 0) (E 2) k) := fun k => by
    show V c main_arg0 (((cfg1.win 1).blk t).view.emb (ix3 (0 : Fin 1) r k)) = _
    refine congrArg (V c main_arg0) (funext fun a => Fin.ext ?_)
    match a with
    | ⟨0, _⟩ => show win1_1.index t (0 : Fin 3) * 1 + 1 * 0 = (E 0).val; omega
    | ⟨1, _⟩ => show win1_1.index t (1 : Fin 3) * 512 + 1 * r.val = (E 2).val; omega
    | ⟨2, _⟩ => show win1_1.index t (2 : Fin 3) * 1024 + 1 * k.val = k.val; omega
  have a2 : ∀ k : Fin 1024, iblk1 V c 2 t (ix2 k e) = V c main_v2 (ix2 k e) := fun k => by
    show V c main_v2 (((cfg1.win 2).blk t).view.emb (ix2 k e)) = _
    refine congrArg (V c main_v2) (funext fun a => Fin.ext ?_)
    match a with
    | ⟨0, _⟩ => show win1_2.index t (0 : Fin 2) * 1024 + 1 * k.val = k.val; omega
    | ⟨1, _⟩ => show win1_2.index t (1 : Fin 2) * 1024 + 1 * e.val = e.val; omega
  simp only [a0, a1, a2]

/-- An index of the array is in point `t`'s block iff each coordinate is in the block's range on its axis. -/
theorem r1_mem_blk3 (t : Fin cfg1.N) (i : S4x1024x4096.Idx) :
    i ∈ ((cfg1.win 3).blk t).view.set ↔ ∀ a : Fin 3, win1_3.index t a * S1x1024x512.size a ≤ (i a).val ∧ (i a).val < win1_3.index t a * S1x1024x512.size a + S1x1024x512.size a := by
  show i ∈ ((View.whole main_v4).slice (win1_3.rect t)).set ↔ _
  rw [View.set_slice_whole, Rect.mem_set_unit]
  exact Iff.rfl

/-- Every index of the output array is in some point's block: the point of its batch and position block. -/
theorem r1_covered3 (i : S4x1024x4096.Idx) : ∃ t : Fin cfg1.N, (cfg1.win 3).flush t = true ∧ i ∈ ((cfg1.win 3).blk t).view.set := by
  have hi0 : (i 0).val < 4 := (i 0).isLt
  have hi1 : (i 1).val < 1024 := (i 1).isLt
  have hi2 : (i 2).val < 4096 := (i 2).isLt
  obtain ⟨t, ht⟩ := r1_idx_onto ⟨(i 0).val, hi0⟩ ⟨(i 2).val / 512, by omega⟩
  have q0 : win1_3.index t (0 : Fin 3) = (i 0).val := congrFun ht 0
  have q1 : win1_3.index t (1 : Fin 3) = 0 := congrFun ht 1
  have q2 : win1_3.index t (2 : Fin 3) = (i 2).val / 512 := congrFun ht 2
  refine ⟨t, flush1_3 t, ?_⟩
  rw [r1_mem_blk3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 512 ≤ (i 2).val ∧ (i 2).val < win1_3.index t (2 : Fin 3) * 512 + 512; omega

/-- The output array after the region's last point: the context times the transposed features, index by index. -/
theorem final1 (c : Dev nD) :
    (dat1 (F := Ideal) V c).arrAt 3 cfg1.N = Cert.Spec.out (V c main_v3) (V c main_arg0) (V c main_v2) :=
  (dat1 V c).arrAt_eq_of_cover 3 _ (fun t _ => r1_flushed3_eq V c t) r1_covered3

end Cert.KernelIdeal.FrValue

end
-- ==== Proof.KI.Pieces0.lean ====
/-
  Region 0's body, case by case: what each store the run found leaves, as a payload of the blocks read.

  First tile (s = 0): the accumulators are filled with zero, then receive the tile's contribution over that fill.
  Middle tiles: each accumulator receives the contribution over what the point before left.
  Last tile (s = 7): the same, and the output block is the quotient of the two accumulators AFTER the addition.
-/
import proofs.«154809_j59734405153127_1_alg».proof.Proof.KI.Frame0
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## First tile: zero fill, then the contribution over the fill -/

theorem piece0_A_0 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (arg7 : Memref sig .tc .vmem S1x1024 .f32) (harg7 : arg7.IsWhole) (hc0 : cond0_0 i) (hc1 : ¬cond0_1 i) (x0 : Vec F S1x512x1024 .f32) (x1 : Vec F S1024x1024 .bf16) (x2 : Vec F S1024x1024 .bf16) :
    sout0_A_0 c i arg2 harg2 arg3 harg3 arg4 harg4 arg5 harg5 arg6 harg6 arg7 harg7 hc0 hc1 x0 x1 x2 = k0_pay6 x0 x1 x2 k0_pay2 := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero (S := S1024x1024) hz2, View.readCov_unit_zero (S := S1024x1024) _ hz2]
  simp only [View.readAt_eq_ld, harg2.read_unread, harg3.read_unread, harg4.read_unread, harg6.read_unread, harg7.read_unread, View.ld_unit_zero (S := S1x512x1024) hz3, View.ld_unit_zero (S := S1024x1024) hz2, View.ld_unit_zero (S := S1x1024) hz2]

theorem piece0_A_1 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (arg7 : Memref sig .tc .vmem S1x1024 .f32) (harg7 : arg7.IsWhole) (hc0 : cond0_0 i) (hc1 : ¬cond0_1 i) (x0 : Vec F S1x512x1024 .f32) (x1 : Vec F S1024x1024 .bf16) (x2 : Vec F S1024x1024 .bf16) :
    sout0_A_1 c i arg2 harg2 arg3 harg3 arg4 harg4 arg5 harg5 arg6 harg6 arg7 harg7 hc0 hc1 x0 x1 x2 = k0_pay7 x0 x1 k0_pay3 := by
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A
  dsimp only
  sl_unfold_words
  rw [View.canon_cons_unit_zero (S := S1x1024) hz2, View.readCov_unit_zero (S := S1x1024) _ hz2]
  simp only [View.readAt_eq_ld, harg2.read_unread, harg3.read_unread, harg4.read_unread, harg6.read_unread, harg7.read_unread, View.ld_unit_zero (S := S1x512x1024) hz3, View.ld_unit_zero (S := S1024x1024) hz2, View.ld_unit_zero (S := S1x1024) hz2]

/-! ## Middle tiles: the contribution over what the point before left -/

theorem piece0_B_0 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (arg7 : Memref sig .tc .vmem S1x1024 .f32) (harg7 : arg7.IsWhole) (hc0 : ¬cond0_0 i) (hc1 : ¬cond0_1 i) (x0 : Vec F S1x512x1024 .f32) (x1 : Vec F S1024x1024 .bf16) (x2 : Vec F S1024x1024 .bf16) (xs0 : Vec F S1024x1024 .f32) (xs1 : Vec F S1x1024 .f32) :
    sout0_B_0 c i arg2 harg2 arg3 harg3 arg4 harg4 arg5 harg5 arg6 harg6 arg7 harg7 hc0 hc1 x0 x1 x2 xs0 xs1 = k0_pay6 x0 x1 x2 xs0 := by
  unfold sout0_B_0
  rw [View.read_writes_eq_canon _ _ _ (scover0_B_0 c i arg2 harg2 arg3 harg3 arg4 harg4 arg5 harg5 arg6 harg6 arg7 harg7 hc0 hc1 x0 x1 x2 xs0 xs1)]
  unfold kernelRun0_B
  dsimp only
  rw [View.canon_unit_zero (S := S1024x1024) hz2]
  simp only [View.readAt_eq_ld, harg2.read_unread, harg3.read_unread, harg4.read_unread, harg6.read_unread, harg7.read_unread, View.ld_unit_zero (S := S1x512x1024) hz3, View.ld_unit_zero (S := S1024x1024) hz2, View.ld_unit_zero (S := S1x1024) hz2]

theorem piece0_B_1 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (arg7 : Memref sig .tc .vmem S1x1024 .f32) (harg7 : arg7.IsWhole) (hc0 : ¬cond0_0 i) (hc1 : ¬cond0_1 i) (x0 : Vec F S1x512x1024 .f32) (x1 : Vec F S1024x1024 .bf16) (x2 : Vec F S1024x1024 .bf16) (xs0 : Vec F S1024x1024 .f32) (xs1 : Vec F S1x1024 .f32) :
    sout0_B_1 c i arg2 harg2 arg3 harg3 arg4 harg4 arg5 harg5 arg6 harg6 arg7 harg7 hc0 hc1 x0 x1 x2 xs0 xs1 = k0_pay7 x0 x1 xs1 := by
  unfold sout0_B_1
  rw [View.read_writes_eq_canon _ _ _ (scover0_B_1 c i arg2 harg2 arg3 harg3 arg4 harg4 arg5 harg5 arg6 harg6 arg7 harg7 hc0 hc1 x0 x1 x2 xs0 xs1)]
  unfold kernelRun0_B
  dsimp only
  rw [View.canon_unit_zero (S := S1x1024) hz2]
  simp only [View.readAt_eq_ld, harg2.read_unread, harg3.read_unread, harg4.read_unread, harg6.read_unread, harg7.read_unread, View.ld_unit_zero (S := S1x512x1024) hz3, View.ld_unit_zero (S := S1024x1024) hz2, View.ld_unit_zero (S := S1x1024) hz2]

/-! ## Last tile: the contribution, then the quotient of the two accumulators as they are after it -/

theorem piece0_C_0 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (arg7 : Memref sig .tc .vmem S1x1024 .f32) (harg7 : arg7.IsWhole) (hc0 : ¬cond0_0 i) (hc1 : cond0_1 i) (x0 : Vec F S1x512x1024 .f32) (x1 : Vec F S1024x1024 .bf16) (x2 : Vec F S1024x1024 .bf16) (xs0 : Vec F S1024x1024 .f32) (xs1 : Vec F S1x1024 .f32) :
    sout0_C_0 c i arg2 harg2 arg3 harg3 arg4 harg4 arg5 harg5 arg6 harg6 arg7 harg7 hc0 hc1 x0 x1 x2 xs0 xs1 = k0_pay6 x0 x1 x2 xs0 := by
  unfold sout0_C_0
  rw [View.read_writes_eq_canon _ _ _ (scover0_C_0 c i arg2 harg2 arg3 harg3 arg4 harg4 arg5 harg5 arg6 harg6 arg7 harg7 hc0 hc1 x0 x1 x2 xs0 xs1)]
  unfold kernelRun0_C
  dsimp only
  sl_unfold_words
  rw [View.canon_unit_zero (S := S1024x1024) hz2]
  simp only [View.readAt_eq_ld, harg2.read_unread, harg3.read_unread, harg4.read_unread, harg6.read_unread, harg7.read_unread, View.ld_unit_zero (S := S1x512x1024) hz3, View.ld_unit_zero (S := S1024x1024) hz2, View.ld_unit_zero (S := S1x1024) hz2]

theorem piece0_C_1 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (arg7 : Memref sig .tc .vmem S1x1024 .f32) (harg7 : arg7.IsWhole) (hc0 : ¬cond0_0 i) (hc1 : cond0_1 i) (x0 : Vec F S1x512x1024 .f32) (x1 : Vec F S1024x1024 .bf16) (x2 : Vec F S1024x1024 .bf16) (xs0 : Vec F S1024x1024 .f32) (xs1 : Vec F S1x1024 .f32) :
    sout0_C_1 c i arg2 harg2 arg3 harg3 arg4 harg4 arg5 harg5 arg6 harg6 arg7 harg7 hc0 hc1 x0 x1 x2 xs0 xs1 = k0_pay7 x0 x1 xs1 := by
  unfold sout0_C_1
  rw [View.read_writes_eq_canon _ _ _ (scover0_C_1 c i arg2 harg2 arg3 harg3 arg4 harg4 arg5 harg5 arg6 harg6 arg7 harg7 hc0 hc1 x0 x1 x2 xs0 xs1)]
  unfold kernelRun0_C
  dsimp only
  sl_unfold_words
  rw [View.canon_unit_zero (S := S1x1024) hz2]
  simp only [View.readAt_eq_ld, harg2.read_unread, harg3.read_unread, harg4.read_unread, harg6.read_unread, harg7.read_unread, View.ld_unit_zero (S := S1x512x1024) hz3, View.ld_unit_zero (S := S1024x1024) hz2, View.ld_unit_zero (S := S1x1024) hz2]

theorem piece0_C_3 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (arg7 : Memref sig .tc .vmem S1x1024 .f32) (harg7 : arg7.IsWhole) (hc0 : ¬cond0_0 i) (hc1 : cond0_1 i) (x0 : Vec F S1x512x1024 .f32) (x1 : Vec F S1024x1024 .bf16) (x2 : Vec F S1024x1024 .bf16) (xs0 : Vec F S1024x1024 .f32) (xs1 : Vec F S1x1024 .f32) :
    out0_C_3 c i arg2 harg2 arg3 harg3 arg4 harg4 arg5 harg5 arg6 harg6 arg7 harg7 hc0 hc1 x0 x1 x2 xs0 xs1 = k0_pay1 (k0_pay6 x0 x1 x2 xs0) (k0_pay7 x0 x1 xs1) := by
  unfold out0_C_3
  rw [View.read_writes_eq_canon _ _ _ (cover0_C_3 c i arg2 harg2 arg3 harg3 arg4 harg4 arg5 harg5 arg6 harg6 arg7 harg7 hc0 hc1 x0 x1 x2 xs0 xs1)]
  unfold kernelRun0_C
  dsimp only
  sl_unfold_words
  rw [View.canon_unit_zero (S := S1x1024x1024) hz3, View.readCov_unit_zero (S := S1024x1024) _ hz2,
    View.readCov_unit_zero (S := S1x1024) _ hz2]
  simp only [View.readAt_eq_ld, harg2.read_unread, harg3.read_unread, harg4.read_unread, harg6.read_unread, harg7.read_unread, View.ld_unit_zero (S := S1x512x1024) hz3, View.ld_unit_zero (S := S1024x1024) hz2, View.ld_unit_zero (S := S1x1024) hz2]

end Cert.KernelIdeal.Fr

end
-- ==== Proof.KI.Pay0.lean ====
/-
  The first kernel's payloads read at an index, over the extended reals.

  With x a 1 × 512 × 1024 tile and Wk, Wv two 1024 × 1024 matrices:
    the tile cast          at (r, e)   is x[0, r, e];
    the feature tile       at (r, d)   is max (Σ_e x[0,r,e] · Wk[e,d]) 0 + 1;
    the new numerator      at (d, e)   is acc[d,e] + Σ_r feature[r,d] · (Σ_k x[0,r,k] · Wv[k,e]);
    the new denominator    at (0, e)   is acc[0,e] + Σ_r feature[r,e];
    the quotient           at (0,d,e)  is num[d,e] / (den[0,e] + ε);
    the two fills are the word 0 everywhere.
-/
import proofs.«154809_j59734405153127_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay0

open Cert.KernelIdeal Cert.KernelIdeal.Gen Idealize.ShloMosaic Idealize.ShloMosaic.ValueIdx

/-! ## The two contractions read at an index -/

theorem dotA_lhs0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl
theorem dotA_lhs1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem dotA_rhs0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem dotA_rhs1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-- A 512 × 1024 by 1024 × 1024 product into the zero accumulator: entry (r, d) is Σ_e a[r,e] · b[e,d]. -/
theorem dotA_apply (a : FVec Ideal S512x1024 .bf16) (b : FVec Ideal S1024x1024 .bf16) (r : Fin 512) (d : Fin 1024) :
    matmul dot_S512x1024_S1024x1024_S512x1024_1_0_0_1_n_n none a b (constant S512x1024 .f32 0x00000000#32) (ix2 r d)
      = ∑ e : Fin 1024, a (ix2 r e) * b (ix2 e d) := by
  refine (Ideal.matmul_constant_zero_apply dot_S512x1024_S1024x1024_S512x1024_1_0_0_1_n_n none a b (ix2 r d)).trans ?_
  rw [← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r d) ((contrEquiv1 dot_S512x1024_S1024x1024_S512x1024_1_0_0_1_n_n 1024 rfl rfl).symm k) = ix2 r k :=
    funext fun ax => Fin.ext (by
      match ax with
      | ⟨0, _⟩ => exact dotA_lhs0 _ _
      | ⟨1, _⟩ => exact (dotA_lhs1 _ _).trans hk)
  have er : dot_S512x1024_S1024x1024_S512x1024_1_0_0_1_n_n.rhsIdx (ix2 r d) ((contrEquiv1 dot_S512x1024_S1024x1024_S512x1024_1_0_0_1_n_n 1024 rfl rfl).symm k) = ix2 k d :=
    funext fun ax => Fin.ext (by
      match ax with
      | ⟨0, _⟩ => exact (dotA_rhs0 _ _).trans hk
      | ⟨1, _⟩ => exact dotA_rhs1 _ _)
  rw [el, er]

theorem dotB_lhs0 (i : S1024x1024.Idx) (q : dot_S512x1024_S512x1024_S1024x1024_0_0_1_1_n_n.contr.Idx) :
    (dot_S512x1024_S512x1024_S1024x1024_0_0_1_1_n_n.lhsIdx i q 0).val = (q ⟨0, by decide⟩).val :=
  dot_S512x1024_S512x1024_S1024x1024_0_0_1_1_n_n.lhsIdx_val_of_single rfl i q
theorem dotB_lhs1 (i : S1024x1024.Idx) (q : dot_S512x1024_S512x1024_S1024x1024_0_0_1_1_n_n.contr.Idx) :
    (dot_S512x1024_S512x1024_S1024x1024_0_0_1_1_n_n.lhsIdx i q 1).val = (i 0).val := by
  unfold DotDims.lhsIdx
  rw [dif_neg (show ¬(1 : Fin S512x1024.rank) ∈ dot_S512x1024_S512x1024_S1024x1024_0_0_1_1_n_n.lhsBatch by decide),
    dif_pos (show (1 : Fin S512x1024.rank) ∈ dot_S512x1024_S512x1024_S1024x1024_0_0_1_1_n_n.lhsNonContracting by decide)]
  rfl
theorem dotB_rhs0 (i : S1024x1024.Idx) (q : dot_S512x1024_S512x1024_S1024x1024_0_0_1_1_n_n.contr.Idx) :
    (dot_S512x1024_S512x1024_S1024x1024_0_0_1_1_n_n.rhsIdx i q 0).val = (q ⟨0, by decide⟩).val :=
  dot_S512x1024_S512x1024_S1024x1024_0_0_1_1_n_n.rhsIdx_val_of_single rfl i q
theorem dotB_rhs1 (i : S1024x1024.Idx) (q : dot_S512x1024_S512x1024_S1024x1024_0_0_1_1_n_n.contr.Idx) :
    (dot_S512x1024_S512x1024_S1024x1024_0_0_1_1_n_n.rhsIdx i q 1).val = (i 1).val := by
  unfold DotDims.rhsIdx
  rw [dif_neg (show ¬(1 : Fin S512x1024.rank) ∈ dot_S512x1024_S512x1024_S1024x1024_0_0_1_1_n_n.rhsBatch by decide),
    dif_pos (show (1 : Fin S512x1024.rank) ∈ dot_S512x1024_S512x1024_S1024x1024_0_0_1_1_n_n.rhsNonContracting by decide)]
  rfl

/-- A product contracting the FIRST axis of both 512 × 1024 operands, into the zero accumulator: entry (d, e) is
    Σ_r a[r,d] · b[r,e]. -/
theorem dotB_apply (a b : FVec Ideal S512x1024 .bf16) (d e : Fin 1024) :
    matmul dot_S512x1024_S512x1024_S1024x1024_0_0_1_1_n_n none a b (constant S1024x1024 .f32 0x00000000#32) (ix2 d e)
      = ∑ r : Fin 512, a (ix2 r d) * b (ix2 r e) := by
  refine (Ideal.matmul_constant_zero_apply dot_S512x1024_S512x1024_S1024x1024_0_0_1_1_n_n none a b (ix2 d e)).trans ?_
  rw [← Equiv.sum_comp (contrEquiv1 dot_S512x1024_S512x1024_S1024x1024_0_0_1_1_n_n 512 rfl rfl).symm]
  refine Finset.sum_congr rfl fun k _ => ?_
  have hk := contrEquiv1_symm_val dot_S512x1024_S512x1024_S1024x1024_0_0_1_1_n_n 512 rfl rfl k
  have el : dot_S512x1024_S512x1024_S1024x1024_0_0_1_1_n_n.lhsIdx (ix2 d e) ((contrEquiv1 dot_S512x1024_S512x1024_S1024x1024_0_0_1_1_n_n 512 rfl rfl).symm k) = ix2 k d :=
    funext fun ax => Fin.ext (by
      match ax with
      | ⟨0, _⟩ => exact (dotB_lhs0 _ _).trans hk
      | ⟨1, _⟩ => exact dotB_lhs1 _ _)
  have er : dot_S512x1024_S512x1024_S1024x1024_0_0_1_1_n_n.rhsIdx (ix2 d e) ((contrEquiv1 dot_S512x1024_S512x1024_S1024x1024_0_0_1_1_n_n 512 rfl rfl).symm k) = ix2 k e :=
    funext fun ax => Fin.ext (by
      match ax with
      | ⟨0, _⟩ => exact (dotB_rhs0 _ _).trans hk
      | ⟨1, _⟩ => exact dotB_rhs1 _ _)
  rw [el, er]

/-! ## The payloads read at an index -/

/-- The tile cast: dropping the leading unit axis, and the format change the identity on the values. -/
theorem pay4_apply (v3 : Vec Ideal S1x512x1024 .f32) (r : Fin 512) (e : Fin 1024) :
    k0_pay4 (F := Ideal) v3 (ix2 r e) = v3 (ix3 0 r e) := by
  unfold k0_pay4
  exact shapeCast_1ab_ab_apply v3 shapeCasts_S1x512x1024_S512x1024 r e

/-- The feature tile: max (x · Wk) 0 + 1. -/
theorem pay5_apply (v3 : Vec Ideal S1x512x1024 .f32) (v6 : Vec Ideal S1024x1024 .bf16) (r : Fin 512) (d : Fin 1024) :
    k0_pay5 (F := Ideal) v3 v6 (ix2 r d)
      = max (∑ e : Fin 1024, v3 (ix3 0 r e) * v6 (ix2 e d)) (Ideal.ofBits .f32 0x00000000#32)
          + Ideal.ofBits .f32 0x3F800000#32 := by
  unfold k0_pay5
  simp only [addf_apply, maximumf_apply, broadcast_apply, shapeCast_self, dotA_apply, pay4_apply]
  rfl

/-- The new numerator accumulator: the old one plus (feature tile)ᵀ · (x · Wv). -/
theorem pay6_apply (v3 : Vec Ideal S1x512x1024 .f32) (v6 v8 : Vec Ideal S1024x1024 .bf16)
    (v21 : Vec Ideal S1024x1024 .f32) (d e : Fin 1024) :
    k0_pay6 (F := Ideal) v3 v6 v8 v21 (ix2 d e)
      = v21 (ix2 d e) + ∑ r : Fin 512, k0_pay5 (F := Ideal) v3 v6 (ix2 r d)
          * (∑ k : Fin 1024, v3 (ix3 0 r k) * v8 (ix2 k e)) := by
  unfold k0_pay6
  simp only [addf_apply, shapeCast_self, dotB_apply, truncf_apply, dotA_apply, pay4_apply]

/-- The column sums of a 512 × 1024 vector: the reduced index with the summed coordinate put back is (r, e). -/
theorem colsum_apply (x : FVec Ideal S512x1024 .f32) (hacc : (0x00000000#32 : BitVec 32) = 0x00000000#32) (e : Fin 1024) :
    multiReduction .add [0] S1024 x 0x00000000#32 reduces_S512x1024_S1024 (.inl rfl) hacc (ix1 e)
      = ∑ r : Fin 512, x (ix2 r e) := by
  refine (Ideal.multiReduction_add_single x 0x00000000#32 reduces_S512x1024_S1024 (.inl rfl) hacc (ix1 e)).trans ?_
  refine Finset.sum_congr rfl fun r _ => congrArg x (funext fun ax => Fin.ext ?_)
  match ax with
  | ⟨0, _⟩ => rfl
  | ⟨1, _⟩ => rfl

/-- The new denominator accumulator: the old one plus the column sums of the feature tile. -/
theorem pay7_apply (v3 : Vec Ideal S1x512x1024 .f32) (v6 : Vec Ideal S1024x1024 .bf16)
    (v26 : Vec Ideal S1x1024 .f32) (e : Fin 1024) :
    k0_pay7 (F := Ideal) v3 v6 v26 (ix2 0 e)
      = v26 (ix2 0 e) + ∑ r : Fin 512, k0_pay5 (F := Ideal) v3 v6 (ix2 r e) := by
  unfold k0_pay7
  simp only [addf_apply, shapeCast_self]
  refine congrArg (v26 (ix2 0 e) + ·) ?_
  refine (shapeCast_a_1a_apply _ shapeCasts_S1024_S1x1024 0 e).trans ?_
  exact colsum_apply (k0_pay5 (F := Ideal) v3 v6) rfl e

/-- The quotient: the numerator divided, column by column, by the denominator plus ε. -/
theorem pay1_apply (v34 : Vec Ideal S1024x1024 .f32) (v35 : Vec Ideal S1x1024 .f32) (d e : Fin 1024) :
    k0_pay1 (F := Ideal) v34 v35 (ix3 0 d e)
      = Ideal.div (v34 (ix2 d e)) (v35 (ix2 0 e) + Ideal.ofBits .f32 0x358637BD#32) := by
  unfold k0_pay1
  refine (shapeCast_ab_1ab_apply _ shapeCasts_S1024x1024_S1x1024x1024 0 d e).trans ?_
  simp only [divf_apply, broadcastTo_1b_ab_apply, addf_apply, broadcast_apply]
  rfl

/-- The numerator's fill is the word 0 everywhere. -/
theorem pay2_apply (j : S1024x1024.Idx) : k0_pay2 (F := Ideal) j = Ideal.ofBits .f32 0x00000000#32 := by
  unfold k0_pay2
  simp only [shapeCast_self, broadcast_apply]
  rfl

/-- The denominator's fill is the word 0 everywhere. -/
theorem pay3_apply (j : S1x1024.Idx) : k0_pay3 (F := Ideal) j = Ideal.ofBits .f32 0x00000000#32 := by
  unfold k0_pay3
  simp only [shapeCast_self, broadcast_apply]
  rfl

/-- … and that word is the extended real 0. -/
theorem pay2_apply_zero (j : S1024x1024.Idx) : k0_pay2 (F := Ideal) j = 0 :=
  (pay2_apply j).trans Ideal.ofBits_zero_f32
theorem pay3_apply_zero (j : S1x1024.Idx) : k0_pay3 (F := Ideal) j = 0 :=
  (pay3_apply j).trans Ideal.ofBits_zero_f32

end Cert.KernelIdeal.Pay0

end
-- ==== Proof.KI.Final0.lean ====
/-
  Region 0's result array: after the 32 grid points the output array holds the context
    ctx[b, d, e] = num[b, d, e] / (den[b, e] + ε),
  because the output window is written back exactly at the last tile of each batch (t = 8·b + 7), its block is
  the whole 1 × 1024 × 1024 slab of batch b, and there the body stores the quotient of the two accumulators,
  which by then hold the sums over all eight tiles.
-/
import proofs.«154809_j59734405153127_1_alg».proof.Proof.KI.Frame0
import proofs.«154809_j59734405153127_1_alg».proof.Proof.KI.Pieces0
import proofs.«154809_j59734405153127_1_alg».proof.Proof.KI.Pay0
import proofs.«154809_j59734405153127_1_alg».proof.Proof.Spec
import Idealize.ShloMosaic.Lib.Pipeline.Value

set_option maxRecDepth 16384

noncomputable section

namespace Cert.KernelIdeal.FrValue0

open Cert.KernelIdeal Cert.KernelIdeal.Gen Cert.KernelIdeal.Fr Cert.KernelIdeal.Pay0
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The output window's block index at point t: the batch t / 8 on the first axis, 0 on the others. -/
theorem idx_out : ∀ t : Fin cfg0.N, win0_3.index t (0 : Fin 3) = t.val / 8 ∧ win0_3.index t (1 : Fin 3) = 0
    ∧ win0_3.index t (2 : Fin 3) = 0 :=
  (by decide +kernel : ∀ t : Fin grid0.N, _)

theorem batch_lt (t : Fin cfg0.N) : t.val / 8 < 4 := by
  have hN : cfg0.N = 32 := N_0
  have := t.isLt
  omega

/-- At a last tile the output buffer holds the quotient of the two accumulators as that point leaves them. -/
theorem out_eq_quot (c : Dev nD) (t : Fin cfg0.N) (h0 : ¬t.val % 8 = 0) (h7 : t.val % 8 = 7) :
    (outsAt0 V c t.val t.isLt).1
      = k0_pay1 (F := Ideal) (outsAt0 V c t.val t.isLt).2.1 (outsAt0 V c t.val t.isLt).2.2 := by
  rw [outsAt0_C V c t h0 h7]
  unfold caseC
  dsimp only
  rw [piece0_C_3, piece0_C_0, piece0_C_1]

/-- … so, the accumulators being the batch's numerator and denominator, it holds the batch's slab of the context. -/
theorem flushed3_eq (c : Dev nD)
    (hnum : ∀ t : Fin cfg0.N, t.val % 8 = 7 → ∀ d e : Fin 1024,
      (outsAt0 V c t.val t.isLt).2.1 (ix2 d e)
        = Cert.Spec.num (V c main_arg0) (V c main_v0) (V c main_v1) ⟨t.val / 8, batch_lt t⟩ d e)
    (hden : ∀ t : Fin cfg0.N, t.val % 8 = 7 → ∀ e : Fin 1024,
      (outsAt0 V c t.val t.isLt).2.2 (ix2 0 e)
        = Cert.Spec.den (V c main_arg0) (V c main_v0) ⟨t.val / 8, batch_lt t⟩ e)
    (t : Fin cfg0.N) (hf : (cfg0.win 3).flush t = true) :
    (dat0 (F := Ideal) V c).flushed 3 t
      = ((cfg0.win 3).blk t).view.read (Elt Ideal) (Cert.Spec.ctx (V c main_arg0) (V c main_v0) (V c main_v1)) := by
  have h7 : t.val % 8 = 7 := (flush0_3 t).mp hf
  have h0 : ¬t.val % 8 = 0 := by omega
  show (cfg0.win 3).cut (grid0.coords t) ((dat0 V c).after 3 t) = _
  rw [after0_3, out_eq_quot V c t h0 h7]
  funext j
  obtain ⟨u, d, e, rfl⟩ : ∃ (u : Fin 1) (d e : Fin 1024), j = ix3 u d e := ⟨j 0, j 1, j 2, eq_ix3 j⟩
  obtain rfl : u = 0 := Subsingleton.elim _ _
  show k0_pay1 (F := Ideal) (outsAt0 V c t.val t.isLt).2.1 (outsAt0 V c t.val t.isLt).2.2 (ix3 0 d e)
      = Cert.Spec.ctx (V c main_arg0) (V c main_v0) (V c main_v1) (((cfg0.win 3).blk t).view.emb (ix3 0 d e))
  rw [pay1_apply, hnum t h7 d e, hden t h7 e]
  have hemb : ((cfg0.win 3).blk t).view.emb (ix3 0 d e) = ix3 ⟨t.val / 8, batch_lt t⟩ d e := by
    obtain ⟨e0, e1, e2⟩ := idx_out t
    funext a; apply Fin.ext
    match a with
    | ⟨0, _⟩ => show win0_3.index t (0 : Fin 3) * 1 + 1 * 0 = t.val / 8; omega
    | ⟨1, _⟩ => show win0_3.index t (1 : Fin 3) * 1024 + 1 * d.val = d.val; omega
    | ⟨2, _⟩ => show win0_3.index t (2 : Fin 3) * 1024 + 1 * e.val = e.val; omega
  rw [hemb]
  rfl

/-- An index of the array is in point t's block iff each coordinate is in the block's range on its axis. -/
theorem mem_blk3 (t : Fin cfg0.N) (i : S4x1024x1024.Idx) :
    i ∈ ((cfg0.win 3).blk t).view.set ↔ ∀ a : Fin 3, win0_3.index t a * S1x1024x1024.size a ≤ (i a).val
      ∧ (i a).val < win0_3.index t a * S1x1024x1024.size a + S1x1024x1024.size a := by
  show i ∈ ((View.whole main_v3).slice (win0_3.rect t)).set ↔ _
  rw [View.set_slice_whole, Rect.mem_set_unit]
  exact Iff.rfl

/-- Every index (b, d, e) of the array is in the block of the last tile of batch b. -/
theorem cover3 (i : S4x1024x1024.Idx) :
    ∃ t : Fin cfg0.N, (cfg0.win 3).flush t = true ∧ i ∈ ((cfg0.win 3).blk t).view.set := by
  have hN : cfg0.N = 32 := N_0
  have hi0 : (i 0).val < 4 := (i 0).isLt
  have hi1 : (i 1).val < 1024 := (i 1).isLt
  have hi2 : (i 2).val < 1024 := (i 2).isLt
  have hlt : 8 * (i 0).val + 7 < cfg0.N := by rw [hN]; omega
  refine ⟨⟨8 * (i 0).val + 7, hlt⟩, (flush0_3 _).mpr (by show (8 * (i 0).val + 7) % 8 = 7; omega), ?_⟩
  rw [mem_blk3]
  obtain ⟨e0, e1, e2⟩ := idx_out ⟨8 * (i 0).val + 7, hlt⟩
  have e0' : win0_3.index ⟨8 * (i 0).val + 7, hlt⟩ (0 : Fin 3) = (i 0).val := by
    rw [e0]; show (8 * (i 0).val + 7) / 8 = _; omega
  intro a
  match a with
  | ⟨0, _⟩ =>
    show win0_3.index _ (0 : Fin 3) * 1 ≤ (i 0).val ∧ (i 0).val < win0_3.index _ (0 : Fin 3) * 1 + 1
    rw [e0']; omega
  | ⟨1, _⟩ =>
    show win0_3.index _ (1 : Fin 3) * 1024 ≤ (i 1).val ∧ (i 1).val < win0_3.index _ (1 : Fin 3) * 1024 + 1024
    rw [e1]; omega
  | ⟨2, _⟩ =>
    show win0_3.index _ (2 : Fin 3) * 1024 ≤ (i 2).val ∧ (i 2).val < win0_3.index _ (2 : Fin 3) * 1024 + 1024
    rw [e2]; omega

/-- THE ARRAY after region 0: the context, given that at each batch's last tile the accumulators hold the batch's
    numerator and denominator. -/
theorem final0_of (c : Dev nD)
    (hnum : ∀ t : Fin cfg0.N, t.val % 8 = 7 → ∀ d e : Fin 1024,
      (outsAt0 V c t.val t.isLt).2.1 (ix2 d e)
        = Cert.Spec.num (V c main_arg0) (V c main_v0) (V c main_v1) ⟨t.val / 8, batch_lt t⟩ d e)
    (hden : ∀ t : Fin cfg0.N, t.val % 8 = 7 → ∀ e : Fin 1024,
      (outsAt0 V c t.val t.isLt).2.2 (ix2 0 e)
        = Cert.Spec.den (V c main_arg0) (V c main_v0) ⟨t.val / 8, batch_lt t⟩ e) :
    (dat0 (F := Ideal) V c).arrAt 3 cfg0.N = Cert.Spec.ctx (V c main_arg0) (V c main_v0) (V c main_v1) :=
  (dat0 (F := Ideal) V c).arrAt_eq_of_cover 3 (Cert.Spec.ctx (V c main_arg0) (V c main_v0) (V c main_v1))
    (fun t hf => flushed3_eq V c hnum hden t hf) cover3

end Cert.KernelIdeal.FrValue0

end
-- ==== Proof.KI.Tile0.lean ====
/-
  Region 0, one grid point at a time, over the extended reals.

  The grid point t = 8·b + s of the first kernel call reads the 512 positions 512·s … 512·s + 511 of batch b of
  the query array, and the two weight matrices whole.  So the tile's contribution to the numerator accumulator at
  (d, e) is  Σ_r feat_k[b, 512·s + r, d] · lin_v[b, 512·s + r, e], and to the denominator accumulator at (0, e) it is
  Σ_r feat_k[b, 512·s + r, e], the sums over the 512 rows r of the tile.
-/
import proofs.«154809_j59734405153127_1_alg».proof.Proof.KI.Frame0
import proofs.«154809_j59734405153127_1_alg».proof.Proof.KI.Pay0
import proofs.«154809_j59734405153127_1_alg».proof.Proof.Spec

set_option maxRecDepth 16384

noncomputable section

namespace Cert.KernelIdeal.FrValue0

open Cert.KernelIdeal Cert.KernelIdeal.Gen Cert.KernelIdeal.Fr Cert.KernelIdeal.Pay0
open Idealize.ShloMosaic Idealize.ShloMosaic.TcCoe Idealize.ShloMosaic.ValueIdx

-- the buffer contents when region 0 is entered
variable (V : (c : Dev nD) → (b : Ref sig .tc) → Buf (Elt Ideal) ((c : Thread nD τ).loc b))

/-! ## The grid -/

/-- The grid has 32 points. -/
theorem t_lt (t : Fin cfg0.N) : t.val < 32 := Nat.lt_of_lt_of_eq t.isLt N_0

/-- The windows' block indices over the grid: the query window sits at block (t / 8, t % 8, 0), the two weight
    windows at their only block. -/
theorem idx_facts0 : ∀ t : Fin cfg0.N,
    win0_0.index t (0 : Fin 3) = t.val / 8 ∧ win0_0.index t (1 : Fin 3) = t.val % 8 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-! ## The blocks read where they sit in their arrays -/

/-- The query tile at point t: row r, column e of the tile is position 512·(t % 8) + r of batch t / 8. -/
theorem blk0_0 (c : Dev nD) (t : Fin cfg0.N) (r : Fin 512) (e : Fin 1024) :
    (iblk0 (F := Ideal) V c 0 t : Vec Ideal S1x512x1024 .f32) (ix3 0 r e)
      = (V c main_arg0 : Cert.Spec.A3 4 4096 1024)
          (ix3 (⟨t.val / 8, by have := t_lt t; omega⟩ : Fin 4)
            (⟨512 * (t.val % 8) + r.val, by have := r.isLt; omega⟩ : Fin 4096) e) := by
  obtain ⟨e0, e1, e2, -⟩ := idx_facts0 t
  show V c main_arg0 (((cfg0.win 0).blk t).view.emb (ix3 0 r e)) = _
  refine congrArg (V c main_arg0) (funext fun a => Fin.ext ?_)
  match a with
  | ⟨0, _⟩ => show win0_0.index t (0 : Fin 3) * 1 + 1 * 0 = t.val / 8; omega
  | ⟨1, _⟩ => show win0_0.index t (1 : Fin 3) * 512 + 1 * r.val = 512 * (t.val % 8) + r.val; omega
  | ⟨2, _⟩ => show win0_0.index t (2 : Fin 3) * 1024 + 1 * e.val = e.val; omega

/-- The same with the point written t = 8·b + s: row r of the tile is position 512·s + r of batch b. -/
theorem blk0_0_at (c : Dev nD) (t : Fin cfg0.N) (b : Fin 4) (s : Fin 8) (ht : t.val = 8 * b.val + s.val)
    (r : Fin 512) (e : Fin 1024) :
    (iblk0 (F := Ideal) V c 0 t : Vec Ideal S1x512x1024 .f32) (ix3 0 r e)
      = (V c main_arg0 : Cert.Spec.A3 4 4096 1024)
          (ix3 b (⟨512 * s.val + r.val, by have := s.isLt; have := r.isLt; omega⟩ : Fin 4096) e) := by
  obtain ⟨e0, e1, e2, -⟩ := idx_facts0 t
  have hb := b.isLt
  have hs := s.isLt
  show V c main_arg0 (((cfg0.win 0).blk t).view.emb (ix3 0 r e)) = _
  refine congrArg (V c main_arg0) (funext fun a => Fin.ext ?_)
  match a with
  | ⟨0, _⟩ => show win0_0.index t (0 : Fin 3) * 1 + 1 * 0 = b.val; omega
  | ⟨1, _⟩ => show win0_0.index t (1 : Fin 3) * 512 + 1 * r.val = 512 * s.val + r.val; omega
  | ⟨2, _⟩ => show win0_0.index t (2 : Fin 3) * 1024 + 1 * e.val = e.val; omega

/-- The keys' weight window is the whole matrix at every point. -/
theorem blk0_1 (c : Dev nD) (t : Fin cfg0.N) (k d : Fin 1024) :
    (iblk0 (F := Ideal) V c 1 t : Vec Ideal S1024x1024 .bf16) (ix2 k d)
      = (V c main_v0 : Cert.Spec.A2 1024 1024) (ix2 k d) := by
  obtain ⟨-, -, -, e3, e4, -⟩ := idx_facts0 t
  show V c main_v0 (((cfg0.win 1).blk t).view.emb (ix2 k d)) = _
  refine congrArg (V c main_v0) (funext fun a => Fin.ext ?_)
  match a with
  | ⟨0, _⟩ => show win0_1.index t (0 : Fin 2) * 1024 + 1 * k.val = k.val; omega
  | ⟨1, _⟩ => show win0_1.index t (1 : Fin 2) * 1024 + 1 * d.val = d.val; omega

/-- The values' weight window is the whole matrix at every point. -/
theorem blk0_2 (c : Dev nD) (t : Fin cfg0.N) (k d : Fin 1024) :
    (iblk0 (F := Ideal) V c 2 t : Vec Ideal S1024x1024 .bf16) (ix2 k d)
      = (V c main_v1 : Cert.Spec.A2 1024 1024) (ix2 k d) := by
  obtain ⟨-, -, -, -, -, e5, e6⟩ := idx_facts0 t
  show V c main_v1 (((cfg0.win 2).blk t).view.emb (ix2 k d)) = _
  refine congrArg (V c main_v1) (funext fun a => Fin.ext ?_)
  match a with
  | ⟨0, _⟩ => show win0_2.index t (0 : Fin 2) * 1024 + 1 * k.val = k.val; omega
  | ⟨1, _⟩ => show win0_2.index t (1 : Fin 2) * 1024 + 1 * d.val = d.val; omega

/-! ## One tile's contribution, over any tile and matrices that read as the arrays do -/

section Tile

variable (X : Cert.Spec.A3 4 4096 1024) (WK WV : Cert.Spec.A2 1024 1024) (b : Fin 4) (pos : Fin 512 → Fin 4096)
variable (x0 : Vec Ideal S1x512x1024 .f32) (x1 x2 : Vec Ideal S1024x1024 .bf16)

/-- The feature tile at (r, d) is the keys' feature map at the tile's position of row r. -/
theorem tile_feat (h0 : ∀ (r : Fin 512) (e : Fin 1024), x0 (ix3 0 r e) = X (ix3 b (pos r) e))
    (h1 : ∀ k d : Fin 1024, x1 (ix2 k d) = WK (ix2 k d)) (r : Fin 512) (d : Fin 1024) :
    k0_pay5 (F := Ideal) x0 x1 (ix2 r d) = Cert.Spec.feat X WK b (pos r) d := by
  refine (pay5_apply x0 x1 r d).trans ?_
  unfold Cert.Spec.feat Cert.Spec.lin
  simp only [h0, h1]

/-- The numerator accumulator after a tile: what it held plus Σ_r feat_k · lin_v over the tile's rows. -/
theorem tile_num (h0 : ∀ (r : Fin 512) (e : Fin 1024), x0 (ix3 0 r e) = X (ix3 b (pos r) e))
    (h1 : ∀ k d : Fin 1024, x1 (ix2 k d) = WK (ix2 k d)) (h2 : ∀ k d : Fin 1024, x2 (ix2 k d) = WV (ix2 k d))
    (p : Vec Ideal S1024x1024 .f32) (d e : Fin 1024) :
    k0_pay6 (F := Ideal) x0 x1 x2 p (ix2 d e)
      = p (ix2 d e) + ∑ r : Fin 512, Cert.Spec.feat X WK b (pos r) d * Cert.Spec.lin X WV b (pos r) e := by
  refine (pay6_apply x0 x1 x2 p d e).trans ?_
  refine congrArg (p (ix2 d e) + ·) (Finset.sum_congr rfl fun r _ => ?_)
  rw [tile_feat X WK b pos x0 x1 h0 h1 r d]
  unfold Cert.Spec.lin
  simp only [h0, h2]

/-- The denominator accumulator after a tile: what it held plus the column sums of the feature tile. -/
theorem tile_den (h0 : ∀ (r : Fin 512) (e : Fin 1024), x0 (ix3 0 r e) = X (ix3 b (pos r) e))
    (h1 : ∀ k d : Fin 1024, x1 (ix2 k d) = WK (ix2 k d))
    (p : Vec Ideal S1x1024 .f32) (e : Fin 1024) :
    k0_pay7 (F := Ideal) x0 x1 p (ix2 0 e)
      = p (ix2 0 e) + ∑ r : Fin 512, Cert.Spec.feat X WK b (pos r) e := by
  refine (pay7_apply x0 x1 p e).trans ?_
  refine congrArg (p (ix2 0 e) + ·) (Finset.sum_congr rfl fun r _ => ?_)
  exact tile_feat X WK b pos x0 x1 h0 h1 r e

end Tile

end Cert.KernelIdeal.FrValue0

end
-- ==== Proof.LibTileSum.lean ====
/-
  Regrouping a sum over a range cut into equal tiles, and the value of a running
  accumulator that adds the tiles one after another.

  Everything here holds in any additive commutative monoid; the extended reals are one,
  so no finiteness hypothesis is needed.
-/
import Mathlib.Algebra.BigOperators.Fin
import Idealize.ShloMosaic.PureOps.Ideal

namespace Cert.TileSum

open Finset

variable {M : Type*} [AddCommMonoid M]

/-- The position `t * j + r` of row `r` of tile `j` lies below `n * t`. -/
theorem tile_pos_lt {n t : ℕ} (j : Fin n) (r : Fin t) : t * j.val + r.val < n * t := by
  calc t * j.val + r.val < t * j.val + t := Nat.add_lt_add_left r.isLt _
    _ = t * (j.val + 1) := by rw [Nat.mul_succ]
    _ ≤ t * n := Nat.mul_le_mul_left _ j.isLt
    _ = n * t := Nat.mul_comm _ _

/-- A sum over `n * t` positions is the sum, over the `n` tiles, of the sums over the `t` rows of
each tile, row `r` of tile `j` being position `t * j + r`. -/
theorem sum_tiles_mul (n t : ℕ) (f : Fin (n * t) → M) :
    ∑ j : Fin n, ∑ r : Fin t, f ⟨t * j.val + r.val, tile_pos_lt j r⟩ = ∑ s : Fin (n * t), f s := by
  rw [← Fintype.sum_prod_type']
  refine Fintype.sum_equiv finProdFinEquiv _ _ ?_
  rintro ⟨j, r⟩
  refine congrArg f (Fin.ext ?_)
  simp only [finProdFinEquiv_apply_val]
  exact Nat.add_comm _ _

/-- The case of 8 tiles of 512 rows: a sum over 4096 positions, tile by tile. -/
theorem sum_tiles (f : Fin 4096 → M) :
    ∑ j : Fin 8, ∑ r : Fin 512, f ⟨512 * j.val + r.val, by omega⟩ = ∑ s : Fin 4096, f s :=
  sum_tiles_mul 8 512 f

/-- The same with a starting value in front, as an accumulator that starts from `z` sees it. -/
theorem add_sum_tiles (z : M) (f : Fin 4096 → M) :
    z + ∑ j : Fin 8, ∑ r : Fin 512, f ⟨512 * j.val + r.val, by omega⟩ = z + ∑ s : Fin 4096, f s := by
  rw [sum_tiles]

/-- The running accumulator over 8 tile sums `g`: it starts as `z + g 0` and step `n + 1` adds
`g (n + 1)` on the right of what step `n` left. -/
def accUpTo (z : M) (g : Fin 8 → M) : (n : ℕ) → n < 8 → M
  | 0, _ => z + g 0
  | n + 1, h => accUpTo z g n (by omega) + g ⟨n + 1, h⟩

/-- Eight terms added one after another to `z`, left to right, are `z` plus their sum. -/
theorem add_eight (z : M) (g : Fin 8 → M) :
    z + g 0 + g 1 + g 2 + g 3 + g 4 + g 5 + g 6 + g 7 = z + ∑ j : Fin 8, g j := by
  rw [Fin.sum_univ_eight]
  simp only [add_assoc]

/-- After the last step the accumulator holds `z` plus the sum of all 8 tile sums. -/
theorem accUpTo_last (z : M) (g : Fin 8 → M) :
    accUpTo z g 7 (by omega) = z + ∑ j : Fin 8, g j := by
  rw [← add_eight]
  rfl

/-- The accumulator over tile sums of 512 rows each ends as `z` plus the sum over all 4096
positions. -/
theorem accUpTo_tiles (z : M) (f : Fin 4096 → M) :
    accUpTo z (fun j : Fin 8 => ∑ r : Fin 512, f ⟨512 * j.val + r.val, by omega⟩) 7 (by omega)
      = z + ∑ s : Fin 4096, f s := by
  rw [accUpTo_last, sum_tiles]

end Cert.TileSum
-- ==== Proof.KI.Acc0.lean ====
/-
  Region 0's accumulation over the eight tiles of a batch, over the extended reals.

  At the point t = 8·b + s the numerator accumulator is what the point before left plus the tile's contribution
  Σ_r feat_k[b, 512·s + r, d] · lin_v[b, 512·s + r, e] (over the zero fill where s = 0), and likewise the denominator
  accumulator with Σ_r feat_k[b, 512·s + r, e].  So after the last tile, s = 7, they hold the zero word plus the
  eight tile sums added one after another, which is the zero word plus the sum over all 4096 positions:
  the specification's numerator (the zero word is 0) and denominator (which keeps its leading zero word).
-/
import proofs.«154809_j59734405153127_1_alg».proof.Proof.KI.Tile0
import proofs.«154809_j59734405153127_1_alg».proof.Proof.KI.Pieces0
import proofs.«154809_j59734405153127_1_alg».proof.Proof.LibTileSum

set_option maxRecDepth 16384

noncomputable section

namespace Cert.KernelIdeal.FrValue0

open Cert.KernelIdeal Cert.KernelIdeal.Gen Cert.KernelIdeal.Fr Cert.KernelIdeal.Pay0
open Idealize.ShloMosaic Idealize.ShloMosaic.TcCoe Idealize.ShloMosaic.ValueIdx

-- the buffer contents when region 0 is entered
variable (V : (c : Dev nD) → (b : Ref sig .tc) → Buf (Elt Ideal) ((c : Thread nD τ).loc b))

/-! ## What each case leaves in the accumulators, as the payloads of the point's blocks -/

theorem caseA_num (c : Dev nD) (t : Fin cfg0.N) (h0 : t.val % 8 = 0) :
    (caseA (F := Ideal) V c t h0).2.1 = k0_pay6 (F := Ideal) (iblk0 (F := Ideal) V c 0 t) (iblk0 (F := Ideal) V c 1 t) (iblk0 (F := Ideal) V c 2 t) (k0_pay2 (F := Ideal)) := by
  unfold caseA
  dsimp only
  exact piece0_A_0 (F := Ideal) c (grid0.coords t) (ms0_0 t) (hs0_0 t) (ms0_1 t) (hs0_1 t) (ms0_2 t) (hs0_2 t) (ms0_3 t) (hs0_3 t)
    scM0_0 (Memref.isWhole_whole cc0_scratch0) scM0_1 (Memref.isWhole_whole cc0_scratch1) ((hcond0_0 t).mpr h0) (ncond1_of_mod0 t h0)
    (iblk0 (F := Ideal) V c 0 t) (iblk0 (F := Ideal) V c 1 t) (iblk0 (F := Ideal) V c 2 t)

theorem caseA_den (c : Dev nD) (t : Fin cfg0.N) (h0 : t.val % 8 = 0) :
    (caseA (F := Ideal) V c t h0).2.2 = k0_pay7 (F := Ideal) (iblk0 (F := Ideal) V c 0 t) (iblk0 (F := Ideal) V c 1 t) (k0_pay3 (F := Ideal)) := by
  unfold caseA
  dsimp only
  exact piece0_A_1 (F := Ideal) c (grid0.coords t) (ms0_0 t) (hs0_0 t) (ms0_1 t) (hs0_1 t) (ms0_2 t) (hs0_2 t) (ms0_3 t) (hs0_3 t)
    scM0_0 (Memref.isWhole_whole cc0_scratch0) scM0_1 (Memref.isWhole_whole cc0_scratch1) ((hcond0_0 t).mpr h0) (ncond1_of_mod0 t h0)
    (iblk0 (F := Ideal) V c 0 t) (iblk0 (F := Ideal) V c 1 t) (iblk0 (F := Ideal) V c 2 t)

theorem caseB_num (c : Dev nD) (t : Fin cfg0.N) (h0 : ¬t.val % 8 = 0) (h1 : ¬t.val % 8 = 7)
    (p0 : Vec Ideal S1024x1024 .f32) (p1 : Vec Ideal S1x1024 .f32) :
    (caseB (F := Ideal) V c t h0 h1 p0 p1).2.1 = k0_pay6 (F := Ideal) (iblk0 (F := Ideal) V c 0 t) (iblk0 (F := Ideal) V c 1 t) (iblk0 (F := Ideal) V c 2 t) p0 := by
  unfold caseB
  dsimp only
  exact piece0_B_0 (F := Ideal) c (grid0.coords t) (ms0_0 t) (hs0_0 t) (ms0_1 t) (hs0_1 t) (ms0_2 t) (hs0_2 t) (ms0_3 t) (hs0_3 t)
    scM0_0 (Memref.isWhole_whole cc0_scratch0) scM0_1 (Memref.isWhole_whole cc0_scratch1) (fun h => h0 ((hcond0_0 t).mp h)) (fun h => h1 ((hcond0_1 t).mp h))
    (iblk0 (F := Ideal) V c 0 t) (iblk0 (F := Ideal) V c 1 t) (iblk0 (F := Ideal) V c 2 t) p0 p1

theorem caseB_den (c : Dev nD) (t : Fin cfg0.N) (h0 : ¬t.val % 8 = 0) (h1 : ¬t.val % 8 = 7)
    (p0 : Vec Ideal S1024x1024 .f32) (p1 : Vec Ideal S1x1024 .f32) :
    (caseB (F := Ideal) V c t h0 h1 p0 p1).2.2 = k0_pay7 (F := Ideal) (iblk0 (F := Ideal) V c 0 t) (iblk0 (F := Ideal) V c 1 t) p1 := by
  unfold caseB
  dsimp only
  exact piece0_B_1 (F := Ideal) c (grid0.coords t) (ms0_0 t) (hs0_0 t) (ms0_1 t) (hs0_1 t) (ms0_2 t) (hs0_2 t) (ms0_3 t) (hs0_3 t)
    scM0_0 (Memref.isWhole_whole cc0_scratch0) scM0_1 (Memref.isWhole_whole cc0_scratch1) (fun h => h0 ((hcond0_0 t).mp h)) (fun h => h1 ((hcond0_1 t).mp h))
    (iblk0 (F := Ideal) V c 0 t) (iblk0 (F := Ideal) V c 1 t) (iblk0 (F := Ideal) V c 2 t) p0 p1

theorem caseC_num (c : Dev nD) (t : Fin cfg0.N) (h0 : ¬t.val % 8 = 0) (h1 : t.val % 8 = 7)
    (p0 : Vec Ideal S1024x1024 .f32) (p1 : Vec Ideal S1x1024 .f32) :
    (caseC (F := Ideal) V c t h0 h1 p0 p1).2.1 = k0_pay6 (F := Ideal) (iblk0 (F := Ideal) V c 0 t) (iblk0 (F := Ideal) V c 1 t) (iblk0 (F := Ideal) V c 2 t) p0 := by
  unfold caseC
  dsimp only
  exact piece0_C_0 (F := Ideal) c (grid0.coords t) (ms0_0 t) (hs0_0 t) (ms0_1 t) (hs0_1 t) (ms0_2 t) (hs0_2 t) (ms0_3 t) (hs0_3 t)
    scM0_0 (Memref.isWhole_whole cc0_scratch0) scM0_1 (Memref.isWhole_whole cc0_scratch1) (fun h => h0 ((hcond0_0 t).mp h)) ((hcond0_1 t).mpr h1)
    (iblk0 (F := Ideal) V c 0 t) (iblk0 (F := Ideal) V c 1 t) (iblk0 (F := Ideal) V c 2 t) p0 p1

theorem caseC_den (c : Dev nD) (t : Fin cfg0.N) (h0 : ¬t.val % 8 = 0) (h1 : t.val % 8 = 7)
    (p0 : Vec Ideal S1024x1024 .f32) (p1 : Vec Ideal S1x1024 .f32) :
    (caseC (F := Ideal) V c t h0 h1 p0 p1).2.2 = k0_pay7 (F := Ideal) (iblk0 (F := Ideal) V c 0 t) (iblk0 (F := Ideal) V c 1 t) p1 := by
  unfold caseC
  dsimp only
  exact piece0_C_1 (F := Ideal) c (grid0.coords t) (ms0_0 t) (hs0_0 t) (ms0_1 t) (hs0_1 t) (ms0_2 t) (hs0_2 t) (ms0_3 t) (hs0_3 t)
    scM0_0 (Memref.isWhole_whole cc0_scratch0) scM0_1 (Memref.isWhole_whole cc0_scratch1) (fun h => h0 ((hcond0_0 t).mp h)) ((hcond0_1 t).mpr h1)
    (iblk0 (F := Ideal) V c 0 t) (iblk0 (F := Ideal) V c 1 t) (iblk0 (F := Ideal) V c 2 t) p0 p1

/-! ## What a point leaves in the accumulators -/

/-- A point of the first tile: the contributions over the two zero fills. -/
theorem first_pay (c : Dev nD) (t : Fin cfg0.N) (h0 : t.val % 8 = 0) :
    (outsAt0 (F := Ideal) V c t.val t.isLt).2.1 = k0_pay6 (F := Ideal) (iblk0 (F := Ideal) V c 0 t) (iblk0 (F := Ideal) V c 1 t) (iblk0 (F := Ideal) V c 2 t) (k0_pay2 (F := Ideal))
    ∧ (outsAt0 (F := Ideal) V c t.val t.isLt).2.2 = k0_pay7 (F := Ideal) (iblk0 (F := Ideal) V c 0 t) (iblk0 (F := Ideal) V c 1 t) (k0_pay3 (F := Ideal)) :=
  ⟨(congrArg (fun o : Out3 Ideal => o.2.1) (outsAt0_A (F := Ideal) V c t h0)).trans (caseA_num V c t h0),
   (congrArg (fun o : Out3 Ideal => o.2.2) (outsAt0_A (F := Ideal) V c t h0)).trans (caseA_den V c t h0)⟩

/-- A point of a later tile: the contributions over what the point before (position n = t − 1) left. -/
theorem later_pay (c : Dev nD) (t : Fin cfg0.N) (h0 : ¬t.val % 8 = 0) (n : ℕ) (hn : n < cfg0.N) (hprev : t.val - 1 = n) :
    (outsAt0 (F := Ideal) V c t.val t.isLt).2.1
        = k0_pay6 (F := Ideal) (iblk0 (F := Ideal) V c 0 t) (iblk0 (F := Ideal) V c 1 t) (iblk0 (F := Ideal) V c 2 t) (outsAt0 (F := Ideal) V c n hn).2.1
    ∧ (outsAt0 (F := Ideal) V c t.val t.isLt).2.2
        = k0_pay7 (F := Ideal) (iblk0 (F := Ideal) V c 0 t) (iblk0 (F := Ideal) V c 1 t) (outsAt0 (F := Ideal) V c n hn).2.2 := by
  subst hprev
  by_cases h1 : t.val % 8 = 7
  · exact ⟨(congrArg (fun o : Out3 Ideal => o.2.1) (outsAt0_C (F := Ideal) V c t h0 h1)).trans (caseC_num V c t h0 h1 _ _),
      (congrArg (fun o : Out3 Ideal => o.2.2) (outsAt0_C (F := Ideal) V c t h0 h1)).trans (caseC_den V c t h0 h1 _ _)⟩
  · exact ⟨(congrArg (fun o : Out3 Ideal => o.2.1) (outsAt0_B (F := Ideal) V c t h0 h1)).trans (caseB_num V c t h0 h1 _ _),
      (congrArg (fun o : Out3 Ideal => o.2.2) (outsAt0_B (F := Ideal) V c t h0 h1)).trans (caseB_den V c t h0 h1 _ _)⟩

/-! ## The tile sums -/

/-- The position of row r of tile s. -/
abbrev pos (s : Fin 8) (r : Fin 512) : Fin 4096 :=
  ⟨512 * s.val + r.val, by have := s.isLt; have := r.isLt; omega⟩

/-- Tile s's contribution to the numerator at (d, e). -/
def tileNum (c : Dev nD) (b : Fin 4) (d e : Fin 1024) (s : Fin 8) : EReal :=
  ∑ r : Fin 512, Cert.Spec.feat (V c main_arg0) (V c main_v0) b (pos s r) d
    * Cert.Spec.lin (V c main_arg0) (V c main_v1) b (pos s r) e

/-- Tile s's contribution to the denominator at e. -/
def tileDen (c : Dev nD) (b : Fin 4) (e : Fin 1024) (s : Fin 8) : EReal :=
  ∑ r : Fin 512, Cert.Spec.feat (V c main_arg0) (V c main_v0) b (pos s r) e

/-- The numerator accumulator after the point t = 8·b + s, over what it held. -/
theorem point_num (c : Dev nD) (t : Fin cfg0.N) (b : Fin 4) (s : Fin 8) (ht : t.val = 8 * b.val + s.val)
    (p : Vec Ideal S1024x1024 .f32) (d e : Fin 1024) :
    k0_pay6 (F := Ideal) (iblk0 (F := Ideal) V c 0 t) (iblk0 (F := Ideal) V c 1 t) (iblk0 (F := Ideal) V c 2 t) p (ix2 d e)
      = p (ix2 d e) + tileNum V c b d e s :=
  tile_num (V c main_arg0) (V c main_v0) (V c main_v1) b (pos s) (iblk0 (F := Ideal) V c 0 t) (iblk0 (F := Ideal) V c 1 t) (iblk0 (F := Ideal) V c 2 t)
    (blk0_0_at V c t b s ht) (blk0_1 V c t) (blk0_2 V c t) p d e

/-- The denominator accumulator after the point t = 8·b + s, over what it held. -/
theorem point_den (c : Dev nD) (t : Fin cfg0.N) (b : Fin 4) (s : Fin 8) (ht : t.val = 8 * b.val + s.val)
    (p : Vec Ideal S1x1024 .f32) (e : Fin 1024) :
    k0_pay7 (F := Ideal) (iblk0 (F := Ideal) V c 0 t) (iblk0 (F := Ideal) V c 1 t) p (ix2 0 e)
      = p (ix2 0 e) + tileDen V c b e s :=
  tile_den (V c main_arg0) (V c main_v0) b (pos s) (iblk0 (F := Ideal) V c 0 t) (iblk0 (F := Ideal) V c 1 t)
    (blk0_0_at V c t b s ht) (blk0_1 V c t) p e

/-! ## The induction over the tiles of a batch -/

/-- After the point 8·b + s the accumulators hold the zero word plus the tile sums 0 … s added one after another. -/
theorem acc_upto (c : Dev nD) (b : Fin 4) : ∀ (s : ℕ) (hs : s < 8) (hn : 8 * b.val + s < cfg0.N),
    (∀ d e : Fin 1024, (outsAt0 (F := Ideal) V c (8 * b.val + s) hn).2.1 (ix2 d e)
        = Cert.TileSum.accUpTo (Ideal.ofBits .f32 0x00000000#32) (tileNum V c b d e) s hs)
    ∧ (∀ e : Fin 1024, (outsAt0 (F := Ideal) V c (8 * b.val + s) hn).2.2 (ix2 0 e)
        = Cert.TileSum.accUpTo (Ideal.ofBits .f32 0x00000000#32) (tileDen V c b e) s hs)
  | 0, hs, hn => by
    obtain ⟨e1, e2⟩ := first_pay V c ⟨8 * b.val + 0, hn⟩ (by show (8 * b.val + 0) % 8 = 0; omega)
    refine ⟨fun d e => ?_, fun e => ?_⟩
    · refine (congrFun e1 (ix2 d e)).trans ?_
      refine (point_num V c ⟨8 * b.val + 0, hn⟩ b 0 rfl (k0_pay2 (F := Ideal)) d e).trans ?_
      exact congrArg (· + tileNum V c b d e 0) (pay2_apply (ix2 d e))
    · refine (congrFun e2 (ix2 0 e)).trans ?_
      refine (point_den V c ⟨8 * b.val + 0, hn⟩ b 0 rfl (k0_pay3 (F := Ideal)) e).trans ?_
      exact congrArg (· + tileDen V c b e 0) (pay3_apply (ix2 0 e))
  | s + 1, hs, hn => by
    obtain ⟨ihn, ihd⟩ := acc_upto c b s (by omega) (by omega)
    obtain ⟨e1, e2⟩ := later_pay V c ⟨8 * b.val + (s + 1), hn⟩ (by show ¬(8 * b.val + (s + 1)) % 8 = 0; omega)
      (8 * b.val + s) (by omega) (by show 8 * b.val + (s + 1) - 1 = 8 * b.val + s; omega)
    refine ⟨fun d e => ?_, fun e => ?_⟩
    · refine (congrFun e1 (ix2 d e)).trans ?_
      refine (point_num V c ⟨8 * b.val + (s + 1), hn⟩ b ⟨s + 1, hs⟩ rfl _ d e).trans ?_
      exact congrArg (· + tileNum V c b d e ⟨s + 1, hs⟩) (ihn d e)
    · refine (congrFun e2 (ix2 0 e)).trans ?_
      refine (point_den V c ⟨8 * b.val + (s + 1), hn⟩ b ⟨s + 1, hs⟩ rfl _ e).trans ?_
      exact congrArg (· + tileDen V c b e ⟨s + 1, hs⟩) (ihd e)

/-! ## After the last tile -/

/-- After the last tile of batch b the numerator accumulator holds Kᵀ V of the batch. -/
theorem num_last (c : Dev nD) (b : Fin 4) (hn : 8 * b.val + 7 < cfg0.N) (d e : Fin 1024) :
    (outsAt0 (F := Ideal) V c (8 * b.val + 7) hn).2.1 (ix2 d e)
      = Cert.Spec.num (V c main_arg0) (V c main_v0) (V c main_v1) b d e := by
  refine ((acc_upto V c b 7 (by omega) hn).1 d e).trans ?_
  refine (Cert.TileSum.accUpTo_tiles (Ideal.ofBits .f32 0x00000000#32)
    (fun p : Fin 4096 => Cert.Spec.feat (V c main_arg0) (V c main_v0) b p d
      * Cert.Spec.lin (V c main_arg0) (V c main_v1) b p e)).trans ?_
  rw [Ideal.ofBits_zero_f32, zero_add]
  rfl

/-- After the last tile of batch b the denominator accumulator holds the column sums of K of the batch, from the
    zero word. -/
theorem den_last (c : Dev nD) (b : Fin 4) (hn : 8 * b.val + 7 < cfg0.N) (e : Fin 1024) :
    (outsAt0 (F := Ideal) V c (8 * b.val + 7) hn).2.2 (ix2 0 e)
      = Cert.Spec.den (V c main_arg0) (V c main_v0) b e := by
  refine ((acc_upto V c b 7 (by omega) hn).2 e).trans ?_
  exact Cert.TileSum.accUpTo_tiles (Ideal.ofBits .f32 0x00000000#32)
    (fun p : Fin 4096 => Cert.Spec.feat (V c main_arg0) (V c main_v0) b p e)

end Cert.KernelIdeal.FrValue0

end
-- ==== Proof.KI.Ctx0.lean ====
/-
  Region 0's result array is the context: the accumulators after each batch's last tile are the batch's numerator
  and denominator, so the quotient written back there is the batch's slab of the context, and the eight-times-four
  points' last tiles cover the array.
-/
import proofs.«154809_j59734405153127_1_alg».proof.Proof.KI.Final0
import proofs.«154809_j59734405153127_1_alg».proof.Proof.KI.Acc0

set_option maxRecDepth 16384

noncomputable section

namespace Cert.KernelIdeal.FrValue0

open Cert.KernelIdeal Cert.KernelIdeal.Gen Cert.KernelIdeal.Fr
open Idealize.ShloMosaic Idealize.ShloMosaic.TcCoe Idealize.ShloMosaic.ValueIdx

variable (V : (c : Dev nD) → (b : Ref sig .tc) → Buf (Elt Ideal) ((c : Thread nD τ).loc b))

/-- A last tile's position is 8 · (its batch) + 7. -/
theorem last_pos (t : Fin cfg0.N) (h7 : t.val % 8 = 7) : t.val = 8 * (⟨t.val / 8, batch_lt t⟩ : Fin 4).val + 7 := by
  show t.val = 8 * (t.val / 8) + 7
  omega

/-- The accumulation at two equal positions is the same. -/
theorem outsAt0_pos_eq (c : Dev nD) {n n' : ℕ} (h : n = n') (hn : n < cfg0.N) (hn' : n' < cfg0.N) :
    outsAt0 V c n hn = outsAt0 V c n' hn' := by
  subst h; rfl

/-- THE ARRAY after region 0: the context of the three argument arrays. -/
theorem final0 (c : Dev nD) :
    (dat0 (F := Ideal) V c).arrAt 3 cfg0.N = Cert.Spec.ctx (V c main_arg0) (V c main_v0) (V c main_v1) :=
  final0_of V c
    (fun t h7 d e => by
      rw [outsAt0_pos_eq V c (last_pos t h7) t.isLt (last_pos t h7 ▸ t.isLt)]
      exact num_last V c ⟨t.val / 8, batch_lt t⟩ _ d e)
    (fun t h7 e => by
      rw [outsAt0_pos_eq V c (last_pos t h7) t.isLt (last_pos t h7 ▸ t.isLt)]
      exact den_last V c ⟨t.val / 8, batch_lt t⟩ _ e)

end Cert.KernelIdeal.FrValue0

end
-- ==== Proof.KI.ValueAll.lean ====
/-
  The result array of the kernel program, at the extended reals: region 1 leaves in it the product of the context
  array with the query features; the context array is what region 0 left, the quotient of the two whole sums; the
  weights the regions read are the arguments themselves, a cast being the identity. Together: the specification's
  one function of the four argument arrays.
-/
import proofs.«154809_j59734405153127_1_alg».proof.Proof.KI.Casts
import proofs.«154809_j59734405153127_1_alg».proof.Proof.KI.Reg1Value
import proofs.«154809_j59734405153127_1_alg».proof.Proof.KI.Ctx0
import proofs.«154809_j59734405153127_1_alg».proof.Proof.Spec

noncomputable section

namespace Cert.KernelIdeal.FrAll

open Cert.KernelIdeal Cert.KernelIdeal.Gen Cert.KernelIdeal.Fr
open Idealize.ShloMosaic Idealize.ShloMosaic.TcCoe Idealize.SL.Sem

variable (m : (ℓ : Loc nD τ sig) → Buf (Elt Ideal) ℓ) (ρ : Dev nD → PrngReg)

/-- The context array region 1 finds is the specification's context of the arguments. -/
theorem ctx_found (c : Dev nD) :
    V2 m ρ c main_v3 = Cert.Spec.ctx (m ((c : Thread nD τ).loc main_arg0)) (m ((c : Thread nD τ).loc main_arg2)) (m ((c : Thread nD τ).loc main_arg3)) := by
  show W2 m ρ c (Proc.devRef .tc main_v3) = _
  rw [W2_main_v3 m ρ c, Cert.KernelIdeal.FrValue0.final0 (V1 m ρ) c]
  show Cert.Spec.ctx (W1 m ρ c (Proc.devRef .tc main_arg0)) (W1 m ρ c (Proc.devRef .tc main_v0)) (W1 m ρ c (Proc.devRef .tc main_v1)) = _
  rw [W1_main_arg0 m ρ c, W1_main_v0 m ρ c, W1_main_v1 m ρ c]

/-- The result array at the end is the specification's function of the four argument arrays. -/
theorem value_v4 (c : Dev nD) :
    W3 m ρ c (Proc.devRef .tc main_v4)
      = Cert.Spec.G (m ((c : Thread nD τ).loc main_arg0)) (m ((c : Thread nD τ).loc main_arg1)) (m ((c : Thread nD τ).loc main_arg2)) (m ((c : Thread nD τ).loc main_arg3)) := by
  rw [W3_main_v4 m ρ c, Cert.KernelIdeal.FrValue.final1 (V2 m ρ) c, ctx_found m ρ c]
  show Cert.Spec.out _ (W2 m ρ c (Proc.devRef .tc main_arg0)) (W2 m ρ c (Proc.devRef .tc main_v2)) = _
  rw [W2_main_arg0 m ρ c, W2_main_v2 m ρ c, W1_main_arg0 m ρ c, W1_main_v2 m ρ c]
  rfl

/-- THE KERNEL'S RUN WITH ITS VALUE: every weakly fair execution terminates, the result array holding the specification's
    function of the launch contents of the arguments, which end unchanged. -/
theorem run_value :
    θ_run defs (onTc (τ := τ) (main (F := Ideal))) ⟨m, fun _ => 0, ρ⟩ (fun r => ∀ c : Dev nD,
      r.2.mem ((c.tc : Thread nD τ).loc main_v4) = Cert.Spec.G (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v4 (by decide))).trans (value_v4 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all (F := Ideal) m ρ)

end Cert.KernelIdeal.FrAll

end
-- ==== Proof.RefSpec.lean ====
/-
  The reference program computes the function `Cert.Spec.G`, index by index, over the extended reals.

  The reference is a chain of array operations:  three projections x · w, the feature map
  max(·, 0) + 1 on two of them, the product Kᵀ V as a sum over the 4096 positions, the column sums of K
  from the initial value 0, the division by (column sum + ε) broadcast over the rows, and the final product
  with Qᵀ.  Each stage, read at an index given by its coordinates, is the matching entry of the
  specification; the stages are chained from the inside out.
-/
import proofs.«154809_j59734405153127_1_alg».proof.Proof.Gen.ReferenceIdeal.Read
import proofs.«154809_j59734405153127_1_alg».proof.Proof.Spec

noncomputable section

namespace Cert.ReferenceIdeal.RefSpec

open Cert.ReferenceIdeal Cert.ReferenceIdeal.Read Idealize.ShloMosaic Idealize.ShloMosaic.ValueIdx

/-- The query array's type. -/
abbrev X : Type := (⟨S4x4096x1024, .f32⟩ : BufTy).Contents (Elt Ideal)
/-- A weight matrix's type. -/
abbrev W : Type := (⟨S1024x1024, .f32⟩ : BufTy).Contents (Elt Ideal)

/-- The first projection x · w, at the index (b, s, d), is Σ_e x[b,s,e] · w[e,d]. -/
theorem v0_lin (x : X) (w : W) (b : Fin 4) (s : Fin 4096) (d : Fin 1024) :
    val_main_v0 (F := Ideal) x w (ix3 b s d) = Cert.Spec.lin x w b s d := by
  refine (val_main_v0_apply x w (ix3 b s d)).trans ?_
  unfold Cert.Spec.lin
  refine Finset.sum_congr rfl fun e _ => ?_
  have el : lidx_main_v0 (ix3 b s d) e = ix3 b s e :=
    funext fun a => match a with | ⟨0, _⟩ => rfl | ⟨1, _⟩ => rfl | ⟨2, _⟩ => rfl
  have er : ridx_main_v0 (ix3 b s d) e = ix2 e d :=
    funext fun a => match a with | ⟨0, _⟩ => rfl | ⟨1, _⟩ => rfl
  rw [el, er]

/-- The second projection (the keys' weights) is the same sum. -/
theorem v5_lin (x : X) (w : W) (b : Fin 4) (s : Fin 4096) (d : Fin 1024) :
    val_main_v5 (F := Ideal) x w (ix3 b s d) = Cert.Spec.lin x w b s d := by
  refine (val_main_v5_apply x w (ix3 b s d)).trans ?_
  unfold Cert.Spec.lin
  refine Finset.sum_congr rfl fun e _ => ?_
  have el : lidx_main_v5 (ix3 b s d) e = ix3 b s e :=
    funext fun a => match a with | ⟨0, _⟩ => rfl | ⟨1, _⟩ => rfl | ⟨2, _⟩ => rfl
  have er : ridx_main_v5 (ix3 b s d) e = ix2 e d :=
    funext fun a => match a with | ⟨0, _⟩ => rfl | ⟨1, _⟩ => rfl
  rw [el, er]

/-- The third projection (the values' weights) is the same sum. -/
theorem v10_lin (x : X) (w : W) (b : Fin 4) (s : Fin 4096) (d : Fin 1024) :
    val_main_v10 (F := Ideal) x w (ix3 b s d) = Cert.Spec.lin x w b s d := by
  refine (val_main_v10_apply x w (ix3 b s d)).trans ?_
  unfold Cert.Spec.lin
  refine Finset.sum_congr rfl fun e _ => ?_
  have el : lidx_main_v10 (ix3 b s d) e = ix3 b s e :=
    funext fun a => match a with | ⟨0, _⟩ => rfl | ⟨1, _⟩ => rfl | ⟨2, _⟩ => rfl
  have er : ridx_main_v10 (ix3 b s d) e = ix2 e d :=
    funext fun a => match a with | ⟨0, _⟩ => rfl | ⟨1, _⟩ => rfl
  rw [el, er]

/-- The queries' feature map max(x · w, 0) + 1, at the index (b, s, d). -/
theorem v4_feat (x : X) (w : W) (b : Fin 4) (s : Fin 4096) (d : Fin 1024) :
    val_main_v4 (F := Ideal) x w (ix3 b s d) = Cert.Spec.feat x w b s d := by
  rw [val_main_v4_apply, val_main_v2_apply, val_main_v1_apply, val_main_cst_apply, val_main_v3_apply,
    val_main_cst_0_apply, v0_lin]
  rfl

/-- The keys' feature map max(x · w, 0) + 1, at the index (b, s, d). -/
theorem v9_feat (x : X) (w : W) (b : Fin 4) (s : Fin 4096) (d : Fin 1024) :
    val_main_v9 (F := Ideal) x w (ix3 b s d) = Cert.Spec.feat x w b s d := by
  rw [val_main_v9_apply, val_main_v7_apply, val_main_v6_apply, val_main_cst_1_apply, val_main_v8_apply,
    val_main_cst_2_apply, v5_lin]
  rfl

/-- Kᵀ V at the index (b, d, e): the sum over the 4096 positions s of K[b,s,d] · V[b,s,e]. -/
theorem v11_num (x : X) (wk wv : W) (b : Fin 4) (d e : Fin 1024) :
    val_main_v11 (F := Ideal) x wk wv (ix3 b d e) = Cert.Spec.num x wk wv b d e := by
  refine (val_main_v11_apply x wk wv (ix3 b d e)).trans ?_
  unfold Cert.Spec.num
  refine Finset.sum_congr rfl fun s _ => ?_
  have el : lidx_main_v11 (ix3 b d e) s = ix3 b s d :=
    funext fun a => match a with | ⟨0, _⟩ => rfl | ⟨1, _⟩ => rfl | ⟨2, _⟩ => rfl
  have er : ridx_main_v11 (ix3 b d e) s = ix3 b s e :=
    funext fun a => match a with | ⟨0, _⟩ => rfl | ⟨1, _⟩ => rfl | ⟨2, _⟩ => rfl
  rw [el, er, v9_feat, v10_lin]

/-- The column sums of K at the index (b, e): the initial value 0 plus the sum over the positions. -/
theorem v12_den (x : X) (wk : W) (b : Fin 4) (e : Fin 1024) :
    val_main_v12 (F := Ideal) x wk (ix2 b e) = Cert.Spec.den x wk b e := by
  refine (val_main_v12_apply x wk (ix2 b e)).trans ?_
  unfold Cert.Spec.den
  rw [val_main_cst_3_apply]
  refine congrArg (_ + ·) (Finset.sum_congr rfl fun s _ => ?_)
  have ei : idx_main_v12 (ix2 b e) s = ix3 b s e :=
    funext fun a => match a with | ⟨0, _⟩ => rfl | ⟨1, _⟩ => rfl | ⟨2, _⟩ => rfl
  rw [ei, v9_feat]

/-- The divisor broadcast over the rows: at (b, d, e) it is the column sum at (b, e) plus ε. -/
theorem v16_den (x : X) (wk : W) (b : Fin 4) (d e : Fin 1024) :
    val_main_v16 (F := Ideal) x wk (ix3 b d e)
      = Cert.Spec.den x wk b e + Ideal.ofBits .f32 0x358637BD#32 := by
  have e13 : idx_main_v13 (idx_main_v16 (ix3 b d e)) = ix2 b e :=
    funext fun a => match a with | ⟨0, _⟩ => rfl | ⟨1, _⟩ => rfl
  rw [val_main_v16_apply, val_main_v15_apply, val_main_v13_apply, val_main_v14_apply, val_main_cst_4_apply,
    e13, v12_den]
  rfl

/-- The context at the index (b, d, e). -/
theorem v17_ctx (x : X) (wk wv : W) (b : Fin 4) (d e : Fin 1024) :
    val_main_v17 (F := Ideal) x wk wv (ix3 b d e) = Cert.Spec.ctx x wk wv (ix3 b d e) := by
  rw [val_main_v17_apply, v11_num, v16_den]
  rfl

/-- The result at the index (b, d, s). -/
theorem v18_G (x : X) (wq wk wv : W) (b : Fin 4) (d : Fin 1024) (s : Fin 4096) :
    val_main_v18 (F := Ideal) x wq wk wv (ix3 b d s) = Cert.Spec.G x wq wk wv (ix3 b d s) := by
  refine (val_main_v18_apply x wq wk wv (ix3 b d s)).trans ?_
  unfold Cert.Spec.G Cert.Spec.out
  refine Finset.sum_congr rfl fun e _ => ?_
  have el : lidx_main_v18 (ix3 b d s) e = ix3 b d e :=
    funext fun a => match a with | ⟨0, _⟩ => rfl | ⟨1, _⟩ => rfl | ⟨2, _⟩ => rfl
  have er : ridx_main_v18 (ix3 b d s) e = ix3 b s e :=
    funext fun a => match a with | ⟨0, _⟩ => rfl | ⟨1, _⟩ => rfl | ⟨2, _⟩ => rfl
  rw [el, er, v17_ctx, v4_feat]

/-- The reference's result is `Cert.Spec.G` of its four arguments. -/
theorem ref_is_G (x0 : (⟨S4x4096x1024, .f32⟩ : BufTy).Contents (Elt Ideal))
    (x1 x2 x3 : (⟨S1024x1024, .f32⟩ : BufTy).Contents (Elt Ideal)) :
    Cert.ReferenceIdeal.Read.val_main_v18 (F := Ideal) x0 x1 x2 x3 = Cert.Spec.G x0 x1 x2 x3 := by
  funext i
  obtain ⟨b, d, s, rfl⟩ : ∃ (b : Fin 4) (d : Fin 1024) (s : Fin 4096), i = ix3 b d s :=
    ⟨i 0, i 1, i 2, eq_ix3 i⟩
  exact v18_G x0 x1 x2 x3 b d s

/-- The term the reference's run leaves in its result buffer is `Cert.Spec.G` of the four arguments. -/
theorem run_term_is_G (x0 : X) (x1 x2 x3 : W) (t : (⟨S4x1024x4096, .f32⟩ : BufTy).Contents (Elt Ideal))
    (ht : t = val_main_v18 (F := Ideal) x0 x1 x2 x3) : t = Cert.Spec.G x0 x1 x2 x3 :=
  ht.trans (ref_is_G x0 x1 x2 x3)

section Run

open Cert.ReferenceIdeal.Gen Idealize.ShloMosaic.TcCoe Idealize.SL.Sem Idealize.ShloMosaic.StableHlo

/-- Every weakly fair execution of the reference from a memory `m` with zero counters terminates with the
result buffer at `Cert.Spec.G` of the four arguments' launch contents, and the arguments unchanged. -/
theorem run_G (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18)
          = Cert.Spec.G (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨(h c).1.trans ((val_main_v18_eq (F := Ideal) _ _ _ _).trans (ref_is_G _ _ _ _)), (h c).2⟩)
    (Cert.ReferenceIdeal.Value.run (F := Ideal) m ρ)

end Run

end Cert.ReferenceIdeal.RefSpec

end
-- ==== Proof.lean ====
/-
  The certificate's proof. Both programs compute, index by index over the extended reals,

      out[b, d, s] = Σ_e ctx[b, d, e] · q[b, s, e],     ctx[b, d, e] = (Σ_s k[b, s, d] · v[b, s, e]) / (Σ_s k[b, s, e] + ε),

  with k = relu(x · Wk) + 1, q = relu(x · Wq) + 1, v = x · Wv (Proof/Spec.lean). The kernel forms the two sums over the
  4096 positions s as eight tiles of 512, accumulated in two scratch buffers over a grid axis, and rounds its matrix
  operands to bf16 — the identity on the extended reals; the reference forms them whole. Sums in the extended reals
  may be regrouped freely (addition is commutative and associative there), so no input need be finite for the two
  results to agree; the precondition is never opened.

  The frames: the kernel program is a chain of three host casts and two kernel regions, run at any float instance in
  Proof/KI/Assembly.lean (the idealized program) and Proof/K/Assembly.lean (the word-level program, the same text in
  its namespace); the reference's frame is its run with the result dropped. No operation was rewritten by the ideal
  pass, so the idealization claim is trivial.
-/
import proofs.«154809_j59734405153127_1_alg».proof.Defs
import proofs.«154809_j59734405153127_1_alg».proof.Proof.Gen.Kernel
import proofs.«154809_j59734405153127_1_alg».proof.Proof.Gen.KernelIdeal
import proofs.«154809_j59734405153127_1_alg».proof.Proof.Gen.ReferenceIdeal
import proofs.«154809_j59734405153127_1_alg».proof.Proof.Gen.Pre_finite_inputs
import proofs.«154809_j59734405153127_1_alg».proof.Proof.Gen.ReferenceIdeal.Run
import proofs.«154809_j59734405153127_1_alg».proof.Proof.Gen.ReferenceIdeal.Read
import proofs.«154809_j59734405153127_1_alg».proof.Proof.K.Assembly
import proofs.«154809_j59734405153127_1_alg».proof.Proof.KI.Assembly
import proofs.«154809_j59734405153127_1_alg».proof.Proof.KI.ValueAll
import proofs.«154809_j59734405153127_1_alg».proof.Proof.RefSpec
import Idealize.ShloMosaic.Adequacy
import Idealize.ShloMosaic.Init

noncomputable section

namespace Cert.Proof

open Idealize.ShloMosaic Idealize.SL.Sem

/-- The word-level program runs to the end, faults nowhere, and leaves its four argument arrays as launched. -/
theorem frame_k : Cert.frame_Kernel := fun m ρ _ => Cert.Kernel.Fr.frame m ρ
/-- The same for the idealized program. -/
theorem frame_ki : Cert.frame_KernelIdeal := fun m ρ _ => Cert.KernelIdeal.Fr.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)
/-- The ideal pass rewrote no operation. -/
theorem preserves : Cert.preserves_Kernel_KernelIdeal := trivial

/-- From memories agreeing on the arguments both programs run, and both result arrays hold the specification's one
    function of the argument arrays: the kernel's by its run read through the two regions, the reference's by its run
    read operation by operation. -/
theorem algebraic : Cert.algebraic_KernelIdeal_ReferenceIdeal := by
  intro m ρ m' ρ' _ hagree
  refine ⟨fun c => Cert.Spec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.FrAll.run_value m ρ, ?_⟩
  refine (θ_run Cert.ReferenceIdeal.defs _ _).mono (fun _ h c => ⟨(h c).1.trans ?_, (h c).2⟩)
    (Cert.ReferenceIdeal.RefSpec.run_G m' ρ')
  rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
